-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000x64 : Shape := ⟨2, ![10000, 64]⟩
abbrev S64x64 : Shape := ⟨2, ![64, 64]⟩
abbrev S64 : Shape := ⟨1, ![64]⟩
abbrev S192x32 : Shape := ⟨2, ![192, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x64 : S_.BroadcastsInDim S10000x64 (![] : Fin 0 → Fin S10000x64.rank)
  reducesTo_S10000x64_S_d0_1 : S10000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x32 : S_.BroadcastsInDim S192x32 (![] : Fin 0 → Fin S192x32.rank)
  reducesTo_S192x32_S_d0_1 : S192x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S32x16 .f32) (main_arg8 : FVec F S16 .f32) (main_v33 : IVec S_ 1) : IVec S_ 1 :=
  let main_v34 : FVec F S32x16 .f32 := Host.absf main_arg7
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S64 .f32) (main_arg5 : FVec F S192x32 .f32) (main_arg6 : FVec F S32 .f32) (main_arg7 : FVec F S32x16 .f32) (main_arg8 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S192x32 .f32 := Host.absf main_arg5
  let main_cst_8 : FVec F S_ .f32 := constant S_ .f32 0x7F800000#32
  let main_v25 : FVec F S192x32 .f32 := broadcastInDim S192x32 ![] bcast_S_S192x32 main_cst_8
  let main_v26 : IVec S192x32 1 := cmpf .olt main_v24 main_v25
  let main_c_9 : IVec S_ 1 := constantI S_ 1 1#1
  let main_v27 : IVec S_ 1 := (fun x v => Host.reduce IntOp.andi x v reducesTo_S192x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S10000x128 .f32) (main_arg1 : FVec F S10000x10000 .f32) (main_arg2 : FVec F S10000x64 .f32) (main_arg3 : FVec F S64x64 .f32) (main_arg4 : FVec F S64 .f32) (main_arg5 : FVec F S192x32 .f32) (main_arg6 : FVec F S32 .f32) (main_arg7 : FVec F S32x16 .f32) (main_arg8 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x64 .f32 := Host.absf main_arg2
  let main_cst_2 : FVec F S_ .f32 := constant S_ .f32 0x7F800000#32
  let main_v10 : FVec F S10000x64 .f32 := broadcastInDim S10000x64 ![] bcast_S_S10000x64 main_cst_2
  let main_v11 : IVec S10000x64 1 := cmpf .olt main_v9 main_v10
  let main_c_3 : IVec S_ 1 := constantI S_ 1 1#1
  let main_v12 : IVec S_ 1 := (fun x v => Host.reduce IntOp.andi x v reducesTo_S10000x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S10000x128 : Shape := ⟨2, ![10000, 128]⟩
abbrev S10000x10000 : Shape := ⟨2, ![10000, 10000]⟩
abbrev S10000x64 : Shape := ⟨2, ![10000, 64]⟩
abbrev S64x64 : Shape := ⟨2, ![64, 64]⟩
abbrev S64 : Shape := ⟨1, ![64]⟩
abbrev S192x32 : Shape := ⟨2, ![192, 32]⟩
abbrev S32 : Shape := ⟨1, ![32]⟩
abbrev S32x16 : Shape := ⟨2, ![32, 16]⟩
abbrev S16 : Shape := ⟨1, ![16]⟩
abbrev S128x32 : Shape := ⟨2, ![128, 32]⟩
abbrev S64x32 : Shape := ⟨2, ![64, 32]⟩
abbrev S1x64 : Shape := ⟨2, ![1, 64]⟩
abbrev S10000x32 : Shape := ⟨2, ![10000, 32]⟩
abbrev S1x32 : Shape := ⟨2, ![1, 32]⟩
abbrev S10000x16 : Shape := ⟨2, ![10000, 16]⟩
abbrev S1x16 : Shape := ⟨2, ![1, 16]⟩
abbrev S400x10000 : Shape := ⟨2, ![400, 10000]⟩
abbrev S400x16 : Shape := ⟨2, ![400, 16]⟩
abbrev S400x32 : Shape := ⟨2, ![400, 32]⟩
abbrev S400 : Shape := ⟨1, ![400]⟩
abbrev S400x1 : Shape := ⟨2, ![400, 1]⟩

abbrev nBuf : Space → Nat
  | .hbm => 17
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x64, .f32⟩
  | .hbm, ⟨3, _⟩ => ⟨S64x64, .f32⟩
  | .hbm, ⟨4, _⟩ => ⟨S64, .f32⟩
  | .hbm, ⟨5, _⟩ => ⟨S192x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S128x32, .f32⟩
  | .hbm, ⟨10, _⟩ => ⟨S64x32, .f32⟩
  | .hbm, ⟨11, _⟩ => ⟨S1x64, .f32⟩
  | .hbm, ⟨12, _⟩ => ⟨S10000x32, .f32⟩
  | .hbm, ⟨13, _⟩ => ⟨S1x32, .f32⟩
  | .hbm, ⟨14, _⟩ => ⟨S10000x16, .f32⟩
  | .hbm, ⟨15, _⟩ => ⟨S1x16, .f32⟩
  | .hbm, ⟨16, _⟩ => ⟨S10000x16, .f32⟩
  | .local _ .vmem, ⟨0, _⟩ => ⟨S10000x128, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S128x32, .f32⟩
  | .local _ .vmem, ⟨5, _⟩ => ⟨S64x32, .f32⟩
  | .local _ .vmem, ⟨6, _⟩ => ⟨S10000x32, .f32⟩
  | .local _ .vmem, ⟨7, _⟩ => ⟨S400x10000, .f32⟩
  | .local _ .vmem, ⟨8, _⟩ => ⟨S400x10000, .f32⟩
  | .local _ .vmem, ⟨9, _⟩ => ⟨S10000x32, .f32⟩
  | .local _ .vmem, ⟨10, _⟩ => ⟨S1x32, .f32⟩
  | .local _ .vmem, ⟨11, _⟩ => ⟨S32x16, .f32⟩
  | .local _ .vmem, ⟨12, _⟩ => ⟨S400x16, .f32⟩
  | .local _ .vmem, ⟨13, _⟩ => ⟨S400x16, .f32⟩
  | .local _ .vmem, ⟨14, _⟩ => ⟨S400x10000, .f32⟩
  | .local _ .vmem, ⟨15, _⟩ => ⟨S400x10000, .f32⟩
  | .local _ .vmem, ⟨16, _⟩ => ⟨S10000x16, .f32⟩
  | .local _ .vmem, ⟨17, _⟩ => ⟨S1x16, .f32⟩
  | .local _ .vmem, ⟨18, _⟩ => ⟨S400x16, .f32⟩
  | .local _ .vmem, ⟨19, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_v0 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10000x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S192x32_S128x32_0_0 : S192x32.Slices ![0, 0] S128x32
  slices_S192x32_S64x32_128_0 : S192x32.Slices ![128, 0] S64x32
  shapeCasts_S64_S1x64 : S64.ShapeCasts S1x64
  shapeCasts_S32_S1x32 : S32.ShapeCasts S1x32
  shapeCasts_S16_S1x16 : S16.ShapeCasts S1x16
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S10000x64_S10000x64_0_0 : ∀ a, (![0, 0] : Fin 2 → Nat) a + S10000x64.size a ≤ S10000x64.size a
  h_S10000x64 : 0 < S10000x64.numel
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  inb_S400x10000_S400x10000_0_0 : ∀ a, (![0, 0] : Fin 2 → Nat) a + S400x10000.size a ≤ S400x10000.size a
  h_S400x10000 : 0 < S400x10000.numel
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S32x16_S32x16_0_0 : ∀ a, (![0, 0] : Fin 2 → Nat) a + S32x16.size a ≤ S32x16.size a
  h_S32x16 : 0 < S32x16.numel
  inb_S400x16_S400x16_0_0 : ∀ a, (![0, 0] : Fin 2 → Nat) a + S400x16.size a ≤ S400x16.size a
  h_S400x16 : 0 < S400x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  reduces_S400x16_S400 : S400x16.Reduces [1] S400
  shapeCasts_S400_S400x1 : S400.ShapeCasts S400x1
  broadcasts_S400x1_S400x16 : S400x1.Broadcasts S400x16
  dot_S64x64_S64x32_S64x32_1_0_0_1_n_n_wf : DotDims.WF S64x64 S64x32 S64x32 [1] [0] [0] [1] [] []
  dot_S1x64_S64x32_S1x32_1_0_0_1_n_n_wf : DotDims.WF S1x64 S64x32 S1x32 [1] [0] [0] [1] [] []
  dot_S10000x128_S128x32_S10000x32_1_0_0_1_n_n_wf : DotDims.WF S10000x128 S128x32 S10000x32 [1] [0] [0] [1] [] []
  dot_S10000x64_S64x32_S10000x32_1_0_0_1_n_n_wf : DotDims.WF S10000x64 S64x32 S10000x32 [1] [0] [0] [1] [] []
  dot_S400x10000_S10000x32_S400x32_1_0_0_1_n_n_wf : DotDims.WF S400x10000 S10000x32 S400x32 [1] [0] [0] [1] [] []
  dot_S400x32_S32x16_S400x16_1_0_0_1_n_n_wf : DotDims.WF S400x32 S32x16 S400x16 [1] [0] [0] [1] [] []
  dot_S400x10000_S10000x16_S400x16_1_0_0_1_n_n_wf : DotDims.WF S400x10000 S10000x16 S400x16 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .f32 = 32 ∨ (Rect.block (s := S10000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x16.size a ≤ S32x16.size a
  hwx1_3 : ∀ i : grid1.Coords, EltTy.bits .f32 = 32 ∨ (Rect.block (s := S32x16) S32x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x16.size a ≤ S10000x16.size a
  hwx1_4 : ∀ i : grid1.Coords, EltTy.bits .f32 = 32 ∨ (Rect.block (s := S10000x16) S400x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .f32 = 32 ∨ (Rect.block (s := S10000x16) S10000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x16.size a ≤ S10000x16.size a
  hwx2_3 : ∀ i : grid2.Coords, EltTy.bits .f32 = 32 ∨ (Rect.block (s := S10000x16) S400x16.size (cc2_transform_3 i) (hinb2_3 i)).WholeWords (EltTy.packing .f32)

variable [Facts₀]

def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x16_S400x16_1_0_0_1_n_n : DotDims S400x32 S32x16 S400x16 where
  lhsContracting := [1]
  rhsContracting := [0]
  lhsNonContracting := [0]
  rhsNonContracting := [1]
  lhsBatch := []
  rhsBatch := []
  wf := dot_S400x32_S32x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg3) false false (stage0_2 0) (sem0_2 0) (Memref.isWhole_whole _) (hstage0_2 0)

abbrev win0_3 : Pipeline.Window sig grid0 :=
  Pipeline.Window.whole (Memref.whole main_call0_v2) false false (stage0_3 0) (sem0_3 0) (Memref.isWhole_whole _) (hstage0_3 0)

abbrev win0_4 : Pipeline.Window sig grid0 :=
  Pipeline.Window.whole (Memref.whole main_call0_v0) false false (stage0_4 0) (sem0_4 0) (Memref.isWhole_whole _) (hstage0_4 0)

abbrev win0_5 : Pipeline.Window sig grid0 :=
  Pipeline.Window.whole (Memref.whole main_call0_v1) false false (stage0_5 0) (sem0_5 0) (Memref.isWhole_whole _) (hstage0_5 0)

abbrev win0_6 : Pipeline.Window sig grid0 :=
  Pipeline.Window.whole (Memref.whole main_call0_v3) true false (stage0_6 0) (sem0_6 0) (Memref.isWhole_whole _) (hstage0_6 0)

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v3) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v4) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S32x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v5) S400x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v5) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v6) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S400x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000x64 : Shape := ⟨2, ![10000, 64]⟩
abbrev S64x64 : Shape := ⟨2, ![64, 64]⟩
abbrev S64 : Shape := ⟨1, ![64]⟩
abbrev S192x32 : Shape := ⟨2, ![192, 32]⟩
abbrev S32 : Shape := ⟨1, ![32]⟩
abbrev S32x16 : Shape := ⟨2, ![32, 16]⟩
abbrev S16 : Shape := ⟨1, ![16]⟩
abbrev S10000 : Shape := ⟨1, ![10000]⟩
abbrev S_ : Shape := ⟨0, ![]⟩
abbrev S10000x1 : Shape := ⟨2, ![10000, 1]⟩
abbrev S1 : Shape := ⟨1, ![1]⟩
abbrev S1x1 : Shape := ⟨2, ![1, 1]⟩
abbrev S1x64 : Shape := ⟨2, ![1, 64]⟩
abbrev S10000x192 : Shape := ⟨2, ![10000, 192]⟩
abbrev S10000x32 : Shape := ⟨2, ![10000, 32]⟩
abbrev S1x32 : Shape := ⟨2, ![1, 32]⟩
abbrev S10000x16 : Shape := ⟨2, ![10000, 16]⟩
abbrev S1x16 : Shape := ⟨2, ![1, 16]⟩

abbrev nBuf : Space → Nat
  | .hbm => 66
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x64, .f32⟩
  | .hbm, ⟨3, _⟩ => ⟨S64x64, .f32⟩
  | .hbm, ⟨4, _⟩ => ⟨S64, .f32⟩
  | .hbm, ⟨5, _⟩ => ⟨S192x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S10000, .i32⟩
  | .hbm, ⟨10, _⟩ => ⟨S_, .i32⟩
  | .hbm, ⟨11, _⟩ => ⟨S10000, .i32⟩
  | .hbm, ⟨12, _⟩ => ⟨S10000, .i1⟩
  | .hbm, ⟨13, _⟩ => ⟨S_, .i32⟩
  | .hbm, ⟨14, _⟩ => ⟨S10000, .i32⟩
  | .hbm, ⟨15, _⟩ => ⟨S10000, .i32⟩
  | .hbm, ⟨16, _⟩ => ⟨S10000, .i32⟩
  | .hbm, ⟨17, _⟩ => ⟨S10000x1, .i32⟩
  | .hbm, ⟨18, _⟩ => ⟨S1, .i32⟩
  | .hbm, ⟨19, _⟩ => ⟨S_, .i32⟩
  | .hbm, ⟨20, _⟩ => ⟨S10000x1, .i32⟩
  | .hbm, ⟨21, _⟩ => ⟨S10000x1, .i1⟩
  | .hbm, ⟨22, _⟩ => ⟨S1x1, .i32⟩
  | .hbm, ⟨23, _⟩ => ⟨S10000x1, .i32⟩
  | .hbm, ⟨24, _⟩ => ⟨S10000x1, .i1⟩
  | .hbm, ⟨25, _⟩ => ⟨S10000x1, .i1⟩
  | .hbm, ⟨26, _⟩ => ⟨S_, .i1⟩
  | .hbm, ⟨27, _⟩ => ⟨S10000, .i1⟩
  | .hbm, ⟨28, _⟩ => ⟨S10000x64, .f32⟩
  | .hbm, ⟨29, _⟩ => ⟨S10000x64, .i1⟩
  | .hbm, ⟨30, _⟩ => ⟨S_, .f32⟩
  | .hbm, ⟨31, _⟩ => ⟨S10000x64, .f32⟩
  | .hbm, ⟨32, _⟩ => ⟨S10000x64, .f32⟩
  | .hbm, ⟨33, _⟩ => ⟨S10000x64, .f32⟩
  | .hbm, ⟨34, _⟩ => ⟨S1x64, .f32⟩
  | .hbm, ⟨35, _⟩ => ⟨S10000x64, .f32⟩
  | .hbm, ⟨36, _⟩ => ⟨S10000x64, .f32⟩
  | .hbm, ⟨37, _⟩ => ⟨S10000x192, .f32⟩
  | .hbm, ⟨38, _⟩ => ⟨S10000x32, .f32⟩
  | .hbm, ⟨39, _⟩ => ⟨S10000x32, .f32⟩
  | .hbm, ⟨40, _⟩ => ⟨S1x32, .f32⟩
  | .hbm, ⟨41, _⟩ => ⟨S10000x32, .f32⟩
  | .hbm, ⟨42, _⟩ => ⟨S10000x32, .f32⟩
  | .hbm, ⟨43, _⟩ => ⟨S_, .f32⟩
  | .hbm, ⟨44, _⟩ => ⟨S10000x32, .f32⟩
  | .hbm, ⟨45, _⟩ => ⟨S10000x32, .f32⟩
  | .hbm, ⟨46, _⟩ => ⟨S10000x16, .f32⟩
  | .hbm, ⟨47, _⟩ => ⟨S10000x16, .f32⟩
  | .hbm, ⟨48, _⟩ => ⟨S1x16, .f32⟩
  | .hbm, ⟨49, _⟩ => ⟨S10000x16, .f32⟩
  | .hbm, ⟨50, _⟩ => ⟨S10000x16, .f32⟩
  | .hbm, ⟨51, _⟩ => ⟨S_, .f32⟩
  | .hbm, ⟨52, _⟩ => ⟨S10000, .f32⟩
  | .hbm, ⟨53, _⟩ => ⟨S_, .f32⟩
  | .hbm, ⟨54, _⟩ => ⟨S10000, .f32⟩
  | .hbm, ⟨55, _⟩ => ⟨S10000, .f32⟩
  | .hbm, ⟨56, _⟩ => ⟨S10000x1, .f32⟩
  | .hbm, ⟨57, _⟩ => ⟨S10000x16, .f32⟩
  | .hbm, ⟨58, _⟩ => ⟨S10000x16, .f32⟩
  | .hbm, ⟨59, _⟩ => ⟨S10000x16, .f32⟩
  | .hbm, ⟨60, _⟩ => ⟨S_, .f32⟩
  | .hbm, ⟨61, _⟩ => ⟨S10000, .f32⟩
  | .hbm, ⟨62, _⟩ => ⟨S10000x1, .f32⟩
  | .hbm, ⟨63, _⟩ => ⟨S10000x1, .f32⟩
  | .hbm, ⟨64, _⟩ => ⟨S10000x16, .f32⟩
  | .hbm, ⟨65, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_call1_cst : Ref sig .tc := ⟨.hbm, 51, rfl⟩
abbrev main_call1_v0 : Ref sig .tc := ⟨.hbm, 52, rfl⟩
abbrev main_call1_cst_0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_cst_1 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_v19 : Ref sig .tc := ⟨.hbm, 65, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  reducesTo_S10000x1_S10000_d1 : S10000x1.ReducesTo [1] S10000
  h_S_ : 0 < S_.numel
  bcast_S10000_S10000x64_0 : S10000.BroadcastsInDim S10000x64 (![0] : Fin 1 → Fin S10000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  concatenates_S10000x128_S10000x64_S10000x192_d1 : Shape.Concatenates [S10000x128, S10000x64] S10000x192 1
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  bcast_S10000x1_S10000x16_0_1 : S10000x1.BroadcastsInDim S10000x16 (![0, 1] : Fin 2 → Fin S10000x16.rank)
  gather_S10000x64_S10000x1_S10000x64_1_0_n_n_0_1_164_wf : GatherDims.WF S10000x64 S10000x1 S10000x64 [1] [0] [] [0] [] 1 ![1, 64]
  dot_S10000x64_S64x64_S10000x64_1_0_0_1_n_n_wf : DotDims.WF S10000x64 S64x64 S10000x64 [1] [0] [0] [1] [] []
  dot_S10000x192_S192x32_S10000x32_1_0_0_1_n_n_wf : DotDims.WF S10000x192 S192x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []

variable [Facts₀]

def gather_S10000x64_S10000x1_S10000x64_1_0_n_n_0_1_164 : GatherDims S10000x64 S10000x1 S10000x64 where
  offsetDims := [1]
  collapsedSliceDims := [0]
  operandBatchingDims := []
  startIndicesBatchingDims := []
  startIndexMap := [0]
  indexVectorDim := 1
  sliceSizes := ![1, 64]
  wf := gather_S10000x64_S10000x1_S10000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x192_S192x32_S10000x32_1_0_0_1_n_n : DotDims S10000x192 S192x32 S10000x32 where
  lhsContracting := [1]
  rhsContracting := [0]
  lhsNonContracting := [0]
  rhsNonContracting := [1]
  lhsBatch := []
  rhsBatch := []
  wf := dot_S10000x192_S192x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.KernelResultRun.lean ====
/-
  The idealized kernel's run with its result named.

  Every weakly fair execution of the three-launch program terminates without a fault, leaves the nine argument arrays
  as launched, and leaves the result array at the contents the third launch's write-backs give it: the last of the
  boundary contents the run passes through (after the host's slices and reshapes and each launch's write-backs in
  turn). The statement is the frame's with one more conjunct, read off the same final thread state.
-/
import proofs.«147795_g18923625906521_cont_8to1_898_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result array at the last boundary's contents, the arguments unchanged. -/
theorem run_main : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.ResultRun

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.LibRowMax.lean ====
/-
  A row's maximum read at an index, at the ideal instance.

  For an a by b array, a kernel's reduction with maximum along axis 1 holds, at row i, the fold of max over the
  column coordinate j of the entries at (i, j), started from the accumulator's value. The fold is over the whole
  finite type of columns, in no particular order.
-/
import Idealize.ShloMosaic.PureOps.Ideal.Laws
import Idealize.ShloMosaic.Lib.ValueIdx

noncomputable section

namespace Idealize.ShloMosaic.RowMax

open Idealize.ShloMosaic Idealize.ShloMosaic.ValueIdx

variable {a b : ℕ} {φ : FTy}

/-- The index a reduction along axis 1 puts back: row i, column j. -/
theorem lift_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

/-- A row's maximum, from the accumulator's value. -/
theorem row_max_apply (v : FVec Ideal (⟨2, ![a, b]⟩ : Shape) φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ v acc h hφ hacc (ix1 i)
      = (Finset.univ : Finset (Fin b)).fold max (Ideal.ofBits φ acc) (fun j => v (ix2 i j)) := by
  rw [Ideal.multiReduction_maximumf_single]
  have e : (v ∘ h.lift (ix1 i)) = fun j : Fin b => v (ix2 i j) := funext fun j => congrArg v (lift_row h i j)
  rw [e]
  rfl

end Idealize.ShloMosaic.RowMax

end
-- ==== Proof.LibReduceAt.lean ====
/-
  Reductions over one axis read at an index of the result, at the ideal instance, with the reduced index named by
  its coordinates.

  For an a by b array: a row's sum, a row's minimum and a column's maximum (a kernel's vector reductions) are the sum,
  the fold of min and the fold of max over the coordinate that was reduced away, of the array's entries at (i, j).
  For an n by a by b array the host's one-operand reduce with a commutative associative operation, along the last axis
  or along the middle axis, is likewise the fold from its initial value over that coordinate of the entries at
  (n, i, j). The folds are over the whole finite type of the reduced coordinate, in no particular order.
-/
import Idealize.ShloMosaic.PureOps.Ideal.Laws
import Idealize.ShloMosaic.PureOps.Reduce
import Idealize.ShloMosaic.Lib.ValueIdx

noncomputable section

namespace Idealize.ShloMosaic.ReduceAt

open Idealize.ShloMosaic Idealize.ShloMosaic.ValueIdx

variable {a b n : ℕ} {φ : FTy}

/-! ### Rank 2: the index put back by a reduction along the columns' axis, or along the rows' axis -/

theorem lift_along_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

theorem lift_along_col (h : (⟨2, ![a, b]⟩ : Shape).Reduces [(0 : Fin 2)] ⟨1, ![b]⟩) (j : Fin b) (i : Fin a) :
    h.lift (ix1 j) i = ix2 i j := by
  funext ax
  apply Fin.ext
  match ax with
  | ⟨0, _⟩ => rfl
  | ⟨1, _⟩ => rfl

/-- A row's sum. -/
theorem row_sum_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.add.neutral φ hφ)
    (i : Fin a) :
    multiReduction .add [(1 : Fin 2)] ⟨1, ![a]⟩ v acc h hφ hacc (ix1 i) = ∑ j : Fin b, v (ix2 i j) :=
  (Ideal.multiReduction_add_single v acc h hφ hacc (ix1 i)).trans
    (Finset.sum_congr rfl fun j _ => congrArg v (lift_along_row h i j))

/-- A column's sum. -/
theorem col_sum_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.add.neutral φ hφ)
    (j : Fin b) :
    multiReduction .add [(0 : Fin 2)] ⟨1, ![b]⟩ v acc h hφ hacc (ix1 j) = ∑ i : Fin a, v (ix2 i j) :=
  (Ideal.multiReduction_add_single v acc h hφ hacc (ix1 j)).trans
    (Finset.sum_congr rfl fun i _ => congrArg v (lift_along_col h j i))

/-- A row's minimum, from the accumulator's value. -/
theorem row_min_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.minimumf.neutral φ hφ)
    (i : Fin a) :
    multiReduction .minimumf [(1 : Fin 2)] ⟨1, ![a]⟩ v acc h hφ hacc (ix1 i)
      = (Finset.univ : Finset (Fin b)).fold min (Ideal.ofBits φ acc) (fun j => v (ix2 i j)) := by
  rw [multiReduction_minimumf_eq_fold, h.fold_filter_drop_single]
  have e : (v ∘ h.lift (ix1 i)) = fun j : Fin b => v (ix2 i j) := funext fun j => congrArg v (lift_along_row h i j)
  rw [e]
  rfl

/-- A column's maximum, from the accumulator's value. -/
theorem col_max_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.maximumf.neutral φ hφ)
    (j : Fin b) :
    multiReduction .maximumf [(0 : Fin 2)] ⟨1, ![b]⟩ v acc h hφ hacc (ix1 j)
      = (Finset.univ : Finset (Fin a)).fold max (Ideal.ofBits φ acc) (fun i => v (ix2 i j)) := by
  rw [Ideal.multiReduction_maximumf_single]
  have e : (v ∘ h.lift (ix1 j)) = fun i : Fin a => v (ix2 i j) := funext fun i => congrArg v (lift_along_col h j i)
  rw [e]
  rfl

/-! ### Rank 3: the host's reduce along the last axis, or along the middle axis -/

theorem lift_along_last (h : (⟨3, ![n, a, b]⟩ : Shape).Reduces [(2 : Fin 3)] ⟨2, ![n, a]⟩) (p : Fin n) (i : Fin a) (j : Fin b) :
    h.lift (ix2 p i) j = ix3 p i j := by
  funext ax
  apply Fin.ext
  match ax with
  | ⟨0, _⟩ => rfl
  | ⟨1, _⟩ => rfl
  | ⟨2, _⟩ => rfl

theorem lift_along_middle (h : (⟨3, ![n, a, b]⟩ : Shape).Reduces [(1 : Fin 3)] ⟨2, ![n, b]⟩) (p : Fin n) (j : Fin b) (i : Fin a) :
    h.lift (ix2 p j) i = ix3 p i j := by
  funext ax
  apply Fin.ext
  match ax with
  | ⟨0, _⟩ => rfl
  | ⟨1, _⟩ => rfl
  | ⟨2, _⟩ => rfl

/-- The host's reduce along the last axis. -/
theorem host_reduce_last_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(2 : Fin 3)] ⟨2, ![n, a]⟩) (hu : 0 < u.numel)
    (h : (⟨3, ![n, a, b]⟩ : Shape).Reduces [(2 : Fin 3)] ⟨2, ![n, a]⟩) (p : Fin n) (i : Fin a) :
    Host.reduce f x init h' hu (ix2 p i)
      = (Finset.univ : Finset (Fin b)).fold f (init (Shape.Idx.first hu)) (fun j => x (ix3 p i j)) := by
  rw [Host.reduce_eq_fold, Shape.ReducesTo.drop_eq_drop h' h, h.fold_filter_drop_single]
  have e : (x ∘ h.lift (ix2 p i)) = fun j : Fin b => x (ix3 p i j) := funext fun j => congrArg x (lift_along_last h p i j)
  rw [e]
  rfl

/-- The host's reduce along the middle axis. -/
theorem host_reduce_middle_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(1 : Fin 3)] ⟨2, ![n, b]⟩) (hu : 0 < u.numel)
    (h : (⟨3, ![n, a, b]⟩ : Shape).Reduces [(1 : Fin 3)] ⟨2, ![n, b]⟩) (p : Fin n) (j : Fin b) :
    Host.reduce f x init h' hu (ix2 p j)
      = (Finset.univ : Finset (Fin a)).fold f (init (Shape.Idx.first hu)) (fun i => x (ix3 p i j)) := by
  rw [Host.reduce_eq_fold, Shape.ReducesTo.drop_eq_drop h' h, h.fold_filter_drop_single]
  have e : (x ∘ h.lift (ix2 p j)) = fun i : Fin a => x (ix3 p i j) := funext fun i => congrArg x (lift_along_middle h p j i)
  rw [e]
  rfl

end Idealize.ShloMosaic.ReduceAt

end
-- ==== Proof.KernelPayloads.lean ====
/-
  What each of the three kernel bodies stores, entry by entry, at the ideal instance.

  The first body stores x W1a + emb (fcW W1b) + fcb W1b (three matrix products into zero accumulators, the bias row
  fcb W1b spread over the rows). The second stores, for its 400-row block a of the adjacency, relu (a z + b1) W2.
  The third stores the block's logits o = a z2 + b2 minus (log of the row's sum of exp (o - M) plus M), M the row's
  maximum.
-/
import proofs.«147795_g18923625906521_cont_8to1_898_2_alg».proof.Proof.Gen.KernelIdeal.Skeleton
import proofs.«147795_g18923625906521_cont_8to1_898_2_alg».proof.Proof.LibMatmulRows
import proofs.«147795_g18923625906521_cont_8to1_898_2_alg».proof.Proof.LibKeepdims
import proofs.«147795_g18923625906521_cont_8to1_898_2_alg».proof.Proof.LibRowMax
import proofs.«147795_g18923625906521_cont_8to1_898_2_alg».proof.Proof.LibReduceAt
import Idealize.ShloMosaic.Lib.ValueLayout
import Idealize.ShloMosaic.Lib.Pipeline.Value

noncomputable section

namespace Cert.KernelIdeal.Payloads

open Cert.KernelIdeal Cert.KernelIdeal.Gen Idealize.ShloMosaic Idealize.ShloMosaic.ValueIdx Idealize.ShloMosaic.Pipeline

/-- A 1 x b row, cast to its own shape and spread over a rows, reads the row's entry at the column. -/
theorem row_spread {a b : ℕ} (v : (⟨2, ![1, b]⟩ : Shape).Idx → EReal) (h1 : (⟨2, ![1, b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix2 (0 : Fin 1) c) := by
  rw [shapeCast_self]
  exact broadcastTo_1b_ab_apply v h2 p c

/-- The zero word is zero; the word 0xFF800000 is the bottom element. -/
theorem zero_word : Ideal.ofBits .f32 0x00000000#32 = 0 := Ideal.ofBits_zero_f32
theorem bottom_word : Ideal.ofBits .f32 0xFF800000#32 = ⊥ := by simp [Ideal.ofBits, Ideal.ieee]

/-! ### The first body: the split first projection -/

/-- fcW W1b at (e, j). -/
theorem weights_product (fcW : FVec Ideal S64x64 .f32) (w1b : FVec Ideal S64x32 .f32) (e : Fin 64) (j : Fin 32) :
    matmul (F := Ideal) dot_S64x64_S64x32_S64x32_1_0_0_1_n_n none fcW (shapeCast S64x32 w1b shapeCasts_S64x32_S64x32)
        (constant S64x32 .f32 0x00000000#32) (ix2 e j)
      = ∑ f : Fin 64, fcW (ix2 e f) * w1b (ix2 f j) := by
  rw [shapeCast_self]
  exact MatmulRows.matmul_zero_apply dot_S64x64_S64x32_S64x32_1_0_0_1_n_n none rfl rfl rfl rfl (fun _ _ => rfl) (fun _ _ => rfl) fcW w1b (ix2 e j)

/-- fcb W1b at (0, j). -/
theorem bias_product (fcb : FVec Ideal S1x64 .f32) (w1b : FVec Ideal S64x32 .f32) (j : Fin 32) :
    matmul (F := Ideal) dot_S1x64_S64x32_S1x32_1_0_0_1_n_n none (shapeCast S1x64 fcb shapeCasts_S1x64_S1x64)
        (shapeCast S64x32 w1b shapeCasts_S64x32_S64x32) (constant S1x32 .f32 0x00000000#32) (ix2 (0 : Fin 1) j)
      = ∑ f : Fin 64, fcb (ix2 (0 : Fin 1) f) * w1b (ix2 f j) := by
  rw [shapeCast_self, shapeCast_self]
  exact MatmulRows.matmul_zero_apply dot_S1x64_S64x32_S1x32_1_0_0_1_n_n none rfl rfl rfl rfl (fun _ _ => rfl) (fun _ _ => rfl) fcb w1b (ix2 (0 : Fin 1) j)

/-- The first body's store at (n, j). -/
theorem prelude_apply (fcW : FVec Ideal S64x64 .f32) (w1b : FVec Ideal S64x32 .f32) (fcb : FVec Ideal S1x64 .f32)
    (x : FVec Ideal S10000x128 .f32) (w1a : FVec Ideal S128x32 .f32) (emb : FVec Ideal S10000x64 .f32) (n : Fin 10000) (j : Fin 32) :
    k0_pay1 (F := Ideal) fcW w1b fcb w1b x w1a emb (ix2 n j)
      = ((∑ k : Fin 128, x (ix2 n k) * w1a (ix2 k j))
          + ∑ e : Fin 64, emb (ix2 n e) * (∑ f : Fin 64, fcW (ix2 e f) * w1b (ix2 f j)))
        + ∑ f : Fin 64, fcb (ix2 (0 : Fin 1) f) * w1b (ix2 f j) := by
  unfold k0_pay1
  show (_ + _) + _ = _
  congr 1
  · congr 1
    · rw [shapeCast_self]
      exact MatmulRows.matmul_zero_apply dot_S10000x128_S128x32_S10000x32_1_0_0_1_n_n none rfl rfl rfl rfl (fun _ _ => rfl) (fun _ _ => rfl) x w1a (ix2 n j)
    · exact MatmulRows.matmul_zero_rows dot_S10000x64_S64x32_S10000x32_1_0_0_1_n_n none rfl rfl rfl rfl (fun _ _ => rfl) (fun _ _ => rfl) emb _ (ix2 n j) _ _
        (fun e => rfl) (fun e => weights_product fcW w1b e j)
  · exact (broadcastTo_1b_ab_apply _ broadcasts_S1x32_S10000x32 n j).trans (bias_product fcb w1b j)

/-! ### The second body: the hidden layer of a block of rows, times W2 -/

/-- The second body's store at (r, j). -/
theorem pass1_apply (a : FVec Ideal S400x10000 .f32) (z : FVec Ideal S10000x32 .f32) (b : FVec Ideal S1x32 .f32)
    (w : FVec Ideal S32x16 .f32) (r : Fin 400) (j : Fin 16) :
    k1_pay1 (F := Ideal) a z b w (ix2 r j)
      = ∑ k : Fin 32, max ((∑ q : Fin 10000, a (ix2 r q) * z (ix2 q k)) + b (ix2 (0 : Fin 1) k)) 0 * w (ix2 k j) := by
  unfold k1_pay1
  refine MatmulRows.matmul_zero_rows dot_S400x32_S32x16_S400x16_1_0_0_1_n_n none rfl rfl rfl rfl (fun _ _ => rfl) (fun _ _ => rfl) _ w (ix2 r j) _ _
    (fun k => ?_) (fun k => rfl)
  show max (_ + _) _ = _
  congr 1
  · congr 1
    · rw [shapeCast_self]
      exact MatmulRows.matmul_zero_apply dot_S400x10000_S10000x32_S400x32_1_0_0_1_n_n none rfl rfl rfl rfl (fun _ _ => rfl) (fun _ _ => rfl) a z (ix2 r k)
    · exact row_spread b shapeCasts_S1x32_S1x32 broadcasts_S1x32_S400x32 r k
  · exact zero_word

/-! ### The third body: the logits of a block of rows and their log-softmax -/

/-- The block's logits a z2 + b2. -/
def blockLogits (a : FVec Ideal S400x10000 .f32) (z : FVec Ideal S10000x16 .f32) (b : FVec Ideal S1x16 .f32) : FVec Ideal S400x16 .f32 :=
  addf (matmul dot_S400x10000_S10000x16_S400x16_1_0_0_1_n_n none a (shapeCast S10000x16 z shapeCasts_S10000x16_S10000x16)
      (constant S400x16 .f32 0x00000000#32))
    (broadcastTo S400x16 (shapeCast S1x16 b shapeCasts_S1x16_S1x16) broadcasts_S1x16_S400x16)

theorem blockLogits_apply (a : FVec Ideal S400x10000 .f32) (z : FVec Ideal S10000x16 .f32) (b : FVec Ideal S1x16 .f32)
    (r : Fin 400) (j : Fin 16) :
    blockLogits a z b (ix2 r j) = (∑ q : Fin 10000, a (ix2 r q) * z (ix2 q j)) + b (ix2 (0 : Fin 1) j) := by
  unfold blockLogits
  show _ + _ = _
  congr 1
  · rw [shapeCast_self]
    exact MatmulRows.matmul_zero_apply dot_S400x10000_S10000x16_S400x16_1_0_0_1_n_n none rfl rfl rfl rfl (fun _ _ => rfl) (fun _ _ => rfl) a z (ix2 r j)
  · exact row_spread b shapeCasts_S1x16_S1x16 broadcasts_S1x16_S400x16 r j

/-- The row maxima of a 400 x 16 block, kept as a column. -/
def rowMaxColumn (v : FVec Ideal S400x16 .f32) : FVec Ideal S400x1 .f32 :=
  shapeCast S400x1 (multiReduction .maximumf [1] S400 v 0xFF800000#32 reduces_S400x16_S400 (.inl rfl) rfl) shapeCasts_S400_S400x1

theorem rowMaxColumn_apply (v : FVec Ideal S400x16 .f32) (r : Fin 400) :
    rowMaxColumn v (ix2 r (0 : Fin 1)) = (Finset.univ : Finset (Fin 16)).fold max ⊥ (fun j => v (ix2 r j)) := by
  unfold rowMaxColumn
  refine (Keepdims.shapeCast_a_a1_apply _ shapeCasts_S400_S400x1 r 0).trans ?_
  refine (RowMax.row_max_apply v 0xFF800000#32 reduces_S400x16_S400 (.inl rfl) rfl r).trans ?_
  rw [bottom_word]

/-- The log-softmax of a block from its logits, as the third body spells it. -/
def blockLogSoftmax (v : FVec Ideal S400x16 .f32) : FVec Ideal S400x16 .f32 :=
  subf v (broadcastTo S400x16
    (addf (log (shapeCast S400x1 (multiReduction .add [1] S400
        (exp (subf v (broadcastTo S400x16 (rowMaxColumn v) broadcasts_S400x1_S400x16))) 0x00000000#32 reduces_S400x16_S400 (.inl rfl) rfl)
        shapeCasts_S400_S400x1)) (rowMaxColumn v)) broadcasts_S400x1_S400x16)

theorem blockLogSoftmax_apply (v : FVec Ideal S400x16 .f32) (r : Fin 400) (j : Fin 16) :
    blockLogSoftmax v (ix2 r j)
      = v (ix2 r j) - (Ideal.log (∑ j' : Fin 16, Ideal.exp (v (ix2 r j') - (Finset.univ : Finset (Fin 16)).fold max ⊥ (fun q => v (ix2 r q))))
          + (Finset.univ : Finset (Fin 16)).fold max ⊥ (fun q => v (ix2 r q))) := by
  unfold blockLogSoftmax
  show v (ix2 r j) - _ = _
  congr 1
  refine (Keepdims.broadcastTo_a1_ab_apply _ broadcasts_S400x1_S400x16 r j).trans ?_
  show Ideal.log _ + _ = _
  refine congrArg₂ (· + ·) (congrArg Ideal.log ?_) (rowMaxColumn_apply v r)
  refine (Keepdims.shapeCast_a_a1_apply _ shapeCasts_S400_S400x1 r 0).trans ?_
  refine (ReduceAt.row_sum_apply _ 0x00000000#32 reduces_S400x16_S400 (.inl rfl) rfl r).trans ?_
  refine Finset.sum_congr rfl fun j' _ => ?_
  show Ideal.exp (v (ix2 r j') - _) = _
  refine congrArg (fun M => Ideal.exp (v (ix2 r j') - M)) ?_
  exact (Keepdims.broadcastTo_a1_ab_apply _ broadcasts_S400x1_S400x16 r j').trans (rowMaxColumn_apply v r)

/-- The third body is the log-softmax of the block's logits. -/
theorem pass2_eq (a : FVec Ideal S400x10000 .f32) (z : FVec Ideal S10000x16 .f32) (b : FVec Ideal S1x16 .f32) :
    k2_pay1 (F := Ideal) a z b = blockLogSoftmax (blockLogits a z b) := rfl

end Cert.KernelIdeal.Payloads

end
-- ==== Proof.KernelRegion0.lean ====
/-
  The first launch (no grid: one point, every window its whole array), for any contents V of the buffers at its entry:
  the result array ends holding the split first projection x W1a + emb (fcW W1b) + fcb W1b of the arrays it reads.
-/
import proofs.«147795_g18923625906521_cont_8to1_898_2_alg».proof.Proof.Gen.KernelIdeal.Frame
import proofs.«147795_g18923625906521_cont_8to1_898_2_alg».proof.Proof.KernelPayloads
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.ShloMosaic.ValueIdx
open Idealize.ShloMosaic.Pipeline Idealize.SL.Sem

variable (V : (c : Dev nD) → (b : Ref sig .tc) → Buf (Elt Ideal) ((c : Thread nD τ).loc b))

theorem origin2 : (![0, 0] : Fin 2 → Nat) = fun _ => 0 := funext fun a => by fin_cases a <;> rfl

/-- The split first projection of the arrays the first launch reads, as one 10000 x 32 array. -/
def firstProjection (c : Dev nD) : S10000x32.Idx → EReal :=
  k0_pay1 (F := Ideal) (V c main_arg3) (V c main_call0_v1) (V c main_call0_v2) (V c main_call0_v1) (V c main_arg0)
    (V c main_call0_v0) (V c main_arg2)

/-! A window of the gridless launch is its whole array: the block's entry y is the array's entry y. -/

theorem whole0_0 (c : Dev nD) (t : Fin cfg0.N) : iblk0 V c 0 t = V c main_arg0 := by
  unfold iblk0; funext y
  show V c main_arg0 (((cfg0.win 0).blk t).view.emb y) = V c main_arg0 y
  congr 1; funext a; apply Fin.ext
  match a with
  | ⟨0, _⟩ => show 0 * 10000 + 1 * (y 0).val = (y 0).val; omega
  | ⟨1, _⟩ => show 0 * 128 + 1 * (y 1).val = (y 1).val; omega
theorem whole0_1 (c : Dev nD) (t : Fin cfg0.N) : iblk0 V c 1 t = V c main_arg2 := by
  unfold iblk0; funext y
  show V c main_arg2 (((cfg0.win 1).blk t).view.emb y) = V c main_arg2 y
  congr 1; funext a; apply Fin.ext
  match a with
  | ⟨0, _⟩ => show 0 * 10000 + 1 * (y 0).val = (y 0).val; omega
  | ⟨1, _⟩ => show 0 * 64 + 1 * (y 1).val = (y 1).val; omega
theorem whole0_2 (c : Dev nD) (t : Fin cfg0.N) : iblk0 V c 2 t = V c main_arg3 := by
  unfold iblk0; funext y
  show V c main_arg3 (((cfg0.win 2).blk t).view.emb y) = V c main_arg3 y
  congr 1; funext a; apply Fin.ext
  match a with
  | ⟨0, _⟩ => show 0 * 64 + 1 * (y 0).val = (y 0).val; omega
  | ⟨1, _⟩ => show 0 * 64 + 1 * (y 1).val = (y 1).val; omega
theorem whole0_3 (c : Dev nD) (t : Fin cfg0.N) : iblk0 V c 3 t = V c main_call0_v2 := by
  unfold iblk0; funext y
  show V c main_call0_v2 (((cfg0.win 3).blk t).view.emb y) = V c main_call0_v2 y
  congr 1; funext a; apply Fin.ext
  match a with
  | ⟨0, _⟩ => show 0 * 1 + 1 * (y 0).val = (y 0).val; omega
  | ⟨1, _⟩ => show 0 * 64 + 1 * (y 1).val = (y 1).val; omega
theorem whole0_4 (c : Dev nD) (t : Fin cfg0.N) : iblk0 V c 4 t = V c main_call0_v0 := by
  unfold iblk0; funext y
  show V c main_call0_v0 (((cfg0.win 4).blk t).view.emb y) = V c main_call0_v0 y
  congr 1; funext a; apply Fin.ext
  match a with
  | ⟨0, _⟩ => show 0 * 128 + 1 * (y 0).val = (y 0).val; omega
  | ⟨1, _⟩ => show 0 * 32 + 1 * (y 1).val = (y 1).val; omega
theorem whole0_5 (c : Dev nD) (t : Fin cfg0.N) : iblk0 V c 5 t = V c main_call0_v1 := by
  unfold iblk0; funext y
  show V c main_call0_v1 (((cfg0.win 5).blk t).view.emb y) = V c main_call0_v1 y
  congr 1; funext a; apply Fin.ext
  match a with
  | ⟨0, _⟩ => show 0 * 64 + 1 * (y 0).val = (y 0).val; omega
  | ⟨1, _⟩ => show 0 * 32 + 1 * (y 1).val = (y 1).val; omega

/-- What the one point writes back is the whole first projection. -/
theorem flushed0 (c : Dev nD) (t : Fin cfg0.N) :
    (dat0 V c).flushed 6 t = ((cfg0.win 6).blk t).view.read (Elt Ideal) (firstProjection V c) := by
  show (cfg0.win 6).cut (grid0.coords t) ((dat0 V c).after 6 t) = _
  rw [after0_6]
  unfold out0_6
  rw [View.canon_unit_zero origin2]
  simp only [View.ld_unit_zero (S := S64x64) origin2, View.ld_unit_zero (S := S64x32) origin2, View.ld_unit_zero (S := S1x64) origin2,
    View.ld_unit_zero (S := S10000x128) origin2, View.ld_unit_zero (S := S128x32) origin2, View.ld_unit_zero (S := S10000x64) origin2]
  funext j
  show k0_pay1 (F := Ideal) (iblk0 V c 2 t) (iblk0 V c 5 t) (iblk0 V c 3 t) (iblk0 V c 5 t) (iblk0 V c 0 t) (iblk0 V c 4 t) (iblk0 V c 1 t) j
    = firstProjection V c (((cfg0.win 6).blk t).view.emb j)
  have e6 : ((cfg0.win 6).blk t).view.emb j = j := by
    funext a; apply Fin.ext
    match a with
    | ⟨0, _⟩ => show 0 * 10000 + 1 * (j 0).val = (j 0).val; omega
    | ⟨1, _⟩ => show 0 * 32 + 1 * (j 1).val = (j 1).val; omega
  rw [e6, whole0_0, whole0_1, whole0_2, whole0_3, whole0_4, whole0_5]
  rfl

/-- Every index of the result array is in the one point's block. -/
theorem mem_block0 (t : Fin cfg0.N) (i : S10000x32.Idx) :
    i ∈ ((cfg0.win 6).blk t).view.set ↔ ∀ a : Fin 2, win0_6.index t a * S10000x32.size a ≤ (i a).val ∧ (i a).val < win0_6.index t a * S10000x32.size a + S10000x32.size a := by
  show i ∈ ((View.whole main_call0_v3).slice (win0_6.rect t)).set ↔ _
  rw [View.set_slice_whole, Rect.mem_set_unit]
  exact Iff.rfl

/-- After the first launch its result array is the split first projection of the arrays it read. -/
theorem final0 (c : Dev nD) : (dat0 V c).arrAt 6 cfg0.N = firstProjection V c :=
  (dat0 V c).arrAt_eq_of_cover 6 (firstProjection V c) (fun t _ => flushed0 V c t) fun i => by
    have hi0 : (i 0).val < 10000 := (i 0).isLt
    have hi1 : (i 1).val < 32 := (i 1).isLt
    refine ⟨t0_0, flush0_6 t0_0, ?_⟩
    rw [mem_block0]
    intro a
    match a with
    | ⟨0, _⟩ => show 0 * 10000 ≤ (i 0).val ∧ (i 0).val < 0 * 10000 + 10000; omega
    | ⟨1, _⟩ => show 0 * 32 ≤ (i 1).val ∧ (i 1).val < 0 * 32 + 32; omega

end Cert.KernelIdeal.Regions

end
-- ==== Proof.KernelRegion1.lean ====
/-
  The second launch (25 points; point t reads rows 400 t .. 400 t + 399 of the adjacency and the whole of the other
  arrays, and writes rows 400 t .. 400 t + 399 of its result), for any contents V of the buffers at its entry: the
  result array ends holding relu (adj z + b1) W2, row by row.
-/
import proofs.«147795_g18923625906521_cont_8to1_898_2_alg».proof.Proof.Gen.KernelIdeal.Frame
import proofs.«147795_g18923625906521_cont_8to1_898_2_alg».proof.Proof.KernelPayloads
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.ShloMosaic.ValueIdx
open Idealize.ShloMosaic.Pipeline Idealize.SL.Sem

variable (V : (c : Dev nD) → (b : Ref sig .tc) → Buf (Elt Ideal) ((c : Thread nD τ).loc b))

theorem origin2' : (![0, 0] : Fin 2 → Nat) = fun _ => 0 := funext fun a => by fin_cases a <;> rfl

/-- relu (A Z + B) W at (n, j): the hidden layer's row n, times column j of W. -/
def hiddenTimes (A : FVec Ideal S10000x10000 .f32) (Z : FVec Ideal S10000x32 .f32) (B : FVec Ideal S1x32 .f32)
    (W : FVec Ideal S32x16 .f32) (n : Fin 10000) (j : Fin 16) : EReal :=
  ∑ k : Fin 32, max ((∑ q : Fin 10000, A (ix2 n q) * Z (ix2 q k)) + B (ix2 (0 : Fin 1) k)) 0 * W (ix2 k j)

/-- The second projection of the arrays the second launch reads, as one 10000 x 16 array. -/
def secondProjection (c : Dev nD) : S10000x16.Idx → EReal := fun i =>
  hiddenTimes (V c main_arg1) (V c main_call0_v3) (V c main_call0_v4) (V c main_arg7) (i 0) (i 1)

/-- The printed index maps over the grid: the adjacency's and the result's block row is the point, every other block
    index is zero. -/
theorem block_indices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row r of point t's adjacency block is row 400 t + r of the adjacency. -/
theorem adjacency_rows1 (c : Dev nD) (t : Fin cfg1.N) (r : Fin 400) (q R : Fin 10000) (hR : R.val = t.val * 400 + r.val) :
    iblk1 V c 0 t (ix2 r q) = V c main_arg1 (ix2 R q) := by
  obtain ⟨e00, e01, -⟩ := block_indices1 t
  show V c main_arg1 (((cfg1.win 0).blk t).view.emb (ix2 r q)) = V c main_arg1 (ix2 R q)
  congr 1; funext a; apply Fin.ext
  match a with
  | ⟨0, _⟩ => show win1_0.index t (0 : Fin 2) * 400 + 1 * r.val = R.val; omega
  | ⟨1, _⟩ => show win1_0.index t (1 : Fin 2) * 10000 + 1 * q.val = q.val; omega

theorem whole1_1 (c : Dev nD) (t : Fin cfg1.N) : iblk1 V c 1 t = V c main_call0_v3 := by
  obtain ⟨-, -, e10, e11, -⟩ := block_indices1 t
  unfold iblk1; funext y
  show V c main_call0_v3 (((cfg1.win 1).blk t).view.emb y) = V c main_call0_v3 y
  congr 1; funext a; apply Fin.ext
  match a with
  | ⟨0, _⟩ => show win1_1.index t (0 : Fin 2) * 10000 + 1 * (y 0).val = (y 0).val; omega
  | ⟨1, _⟩ => show win1_1.index t (1 : Fin 2) * 32 + 1 * (y 1).val = (y 1).val; omega
theorem whole1_2 (c : Dev nD) (t : Fin cfg1.N) : iblk1 V c 2 t = V c main_call0_v4 := by
  obtain ⟨-, -, -, -, e20, e21, -⟩ := block_indices1 t
  unfold iblk1; funext y
  show V c main_call0_v4 (((cfg1.win 2).blk t).view.emb y) = V c main_call0_v4 y
  congr 1; funext a; apply Fin.ext
  match a with
  | ⟨0, _⟩ => show win1_2.index t (0 : Fin 2) * 1 + 1 * (y 0).val = (y 0).val; omega
  | ⟨1, _⟩ => show win1_2.index t (1 : Fin 2) * 32 + 1 * (y 1).val = (y 1).val; omega
theorem whole1_3 (c : Dev nD) (t : Fin cfg1.N) : iblk1 V c 3 t = V c main_arg7 := by
  obtain ⟨-, -, -, -, -, -, e30, e31, -⟩ := block_indices1 t
  unfold iblk1; funext y
  show V c main_arg7 (((cfg1.win 3).blk t).view.emb y) = V c main_arg7 y
  congr 1; funext a; apply Fin.ext
  match a with
  | ⟨0, _⟩ => show win1_3.index t (0 : Fin 2) * 32 + 1 * (y 0).val = (y 0).val; omega
  | ⟨1, _⟩ => show win1_3.index t (1 : Fin 2) * 16 + 1 * (y 1).val = (y 1).val; omega

/-- What point t writes back is rows 400 t .. 400 t + 399 of the second projection. -/
theorem flushed1 (c : Dev nD) (t : Fin cfg1.N) :
    (dat1 V c).flushed 4 t = ((cfg1.win 4).blk t).view.read (Elt Ideal) (secondProjection V c) := by
  show (cfg1.win 4).cut (grid1.coords t) ((dat1 V c).after 4 t) = _
  rw [after1_4]
  unfold out1_4
  rw [View.canon_unit_zero origin2']
  simp only [View.ld_unit_zero (S := S400x10000) origin2', View.ld_unit_zero (S := S10000x32) origin2',
    View.ld_unit_zero (S := S1x32) origin2', View.ld_unit_zero (S := S32x16) origin2']
  funext j
  obtain ⟨r, jj, rfl⟩ : ∃ (r : Fin 400) (jj : Fin 16), j = ix2 r jj := ⟨j 0, j 1, eq_ix2 j⟩
  show k1_pay1 (F := Ideal) (iblk1 V c 0 t) (iblk1 V c 1 t) (iblk1 V c 2 t) (iblk1 V c 3 t) (ix2 r jj)
    = secondProjection V c (((cfg1.win 4).blk t).view.emb (ix2 r jj))
  obtain ⟨-, -, -, -, -, -, -, -, e40, e41⟩ := block_indices1 t
  have ht : t.val < 25 := t.isLt
  have hr : r.val < 400 := r.isLt
  have eo : ((cfg1.win 4).blk t).view.emb (ix2 r jj) = ix2 (⟨t.val * 400 + r.val, by omega⟩ : Fin 10000) jj := by
    funext a; apply Fin.ext
    match a with
    | ⟨0, _⟩ => show win1_4.index t (0 : Fin 2) * 400 + 1 * r.val = t.val * 400 + r.val; omega
    | ⟨1, _⟩ => show win1_4.index t (1 : Fin 2) * 16 + 1 * jj.val = jj.val; omega
  rw [eo, Payloads.pass1_apply, whole1_1, whole1_2, whole1_3]
  show _ = hiddenTimes (V c main_arg1) (V c main_call0_v3) (V c main_call0_v4) (V c main_arg7) ⟨t.val * 400 + r.val, _⟩ jj
  unfold hiddenTimes
  refine Finset.sum_congr rfl fun k _ => ?_
  congr 3
  refine Finset.sum_congr rfl fun q _ => ?_
  rw [adjacency_rows1 V c t r q ⟨t.val * 400 + r.val, by omega⟩ rfl]

/-- An index of the result array is in point t's block iff its coordinates are in the block's ranges. -/
theorem mem_block1 (t : Fin cfg1.N) (i : S10000x16.Idx) :
    i ∈ ((cfg1.win 4).blk t).view.set ↔ ∀ a : Fin 2, win1_4.index t a * S400x16.size a ≤ (i a).val ∧ (i a).val < win1_4.index t a * S400x16.size a + S400x16.size a := by
  show i ∈ ((View.whole main_call0_v5).slice (win1_4.rect t)).set ↔ _
  rw [View.set_slice_whole, Rect.mem_set_unit]
  exact Iff.rfl

/-- After the second launch its result array is the second projection of the arrays it read: row n is written by
    point n / 400. -/
theorem final1 (c : Dev nD) : (dat1 V c).arrAt 4 cfg1.N = secondProjection V c :=
  (dat1 V c).arrAt_eq_of_cover 4 (secondProjection V c) (fun t _ => flushed1 V c t) fun i => by
    have hi0 : (i 0).val < 10000 := (i 0).isLt
    have hi1 : (i 1).val < 16 := (i 1).isLt
    let t : Fin cfg1.N := ⟨(i 0).val / 400, by show (i 0).val / 400 < 25; omega⟩
    obtain ⟨-, -, -, -, -, -, -, -, e40, e41⟩ := block_indices1 t
    have et : t.val = (i 0).val / 400 := rfl
    refine ⟨t, flush1_4 t, ?_⟩
    rw [mem_block1]
    intro a
    match a with
    | ⟨0, _⟩ => show win1_4.index t (0 : Fin 2) * 400 ≤ (i 0).val ∧ (i 0).val < win1_4.index t (0 : Fin 2) * 400 + 400; omega
    | ⟨1, _⟩ => show win1_4.index t (1 : Fin 2) * 16 ≤ (i 1).val ∧ (i 1).val < win1_4.index t (1 : Fin 2) * 16 + 16; omega

end Cert.KernelIdeal.Regions

end
-- ==== Proof.KernelRegion2.lean ====
/-
  The third launch (25 points; point t reads rows 400 t .. 400 t + 399 of the adjacency and the whole of the other
  arrays, and writes rows 400 t .. 400 t + 399 of its result), for any contents V of the buffers at its entry: the
  result array ends holding the row-wise log-softmax of adj z2 + b2, in the spelling o - (log sum exp (o - M) + M).
-/
import proofs.«147795_g18923625906521_cont_8to1_898_2_alg».proof.Proof.Gen.KernelIdeal.Frame
import proofs.«147795_g18923625906521_cont_8to1_898_2_alg».proof.Proof.KernelPayloads
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.ShloMosaic.ValueIdx
open Idealize.ShloMosaic.Pipeline Idealize.SL.Sem

variable (V : (c : Dev nD) → (b : Ref sig .tc) → Buf (Elt Ideal) ((c : Thread nD τ).loc b))

theorem origin2'' : (![0, 0] : Fin 2 → Nat) = fun _ => 0 := funext fun a => by fin_cases a <;> rfl

/-- The logits A Z + B at (n, j). -/
def logitEntry (A : FVec Ideal S10000x10000 .f32) (Z : FVec Ideal S10000x16 .f32) (B : FVec Ideal S1x16 .f32)
    (n : Fin 10000) (j : Fin 16) : EReal :=
  (∑ q : Fin 10000, A (ix2 n q) * Z (ix2 q j)) + B (ix2 (0 : Fin 1) j)

/-- The log-softmax of row n of the logits at column j: o - (log sum exp (o - M) + M), M the row's maximum. -/
def logSoftmaxEntry (A : FVec Ideal S10000x10000 .f32) (Z : FVec Ideal S10000x16 .f32) (B : FVec Ideal S1x16 .f32)
    (n : Fin 10000) (j : Fin 16) : EReal :=
  logitEntry A Z B n j
    - (Ideal.log (∑ j' : Fin 16, Ideal.exp (logitEntry A Z B n j'
          - (Finset.univ : Finset (Fin 16)).fold max ⊥ (fun q => logitEntry A Z B n q)))
        + (Finset.univ : Finset (Fin 16)).fold max ⊥ (fun q => logitEntry A Z B n q))

/-- The result of the arrays the third launch reads, as one 10000 x 16 array. -/
def logSoftmaxArray (c : Dev nD) : S10000x16.Idx → EReal := fun i =>
  logSoftmaxEntry (V c main_arg1) (V c main_call0_v5) (V c main_call0_v6) (i 0) (i 1)

/-- The printed index maps over the grid: the adjacency's and the result's block row is the point, every other block
    index is zero. -/
theorem block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row r of point t's adjacency block is row 400 t + r of the adjacency. -/
theorem adjacency_rows2 (c : Dev nD) (t : Fin cfg2.N) (r : Fin 400) (q R : Fin 10000) (hR : R.val = t.val * 400 + r.val) :
    iblk2 V c 0 t (ix2 r q) = V c main_arg1 (ix2 R q) := by
  obtain ⟨e00, e01, -⟩ := block_indices2 t
  show V c main_arg1 (((cfg2.win 0).blk t).view.emb (ix2 r q)) = V c main_arg1 (ix2 R q)
  congr 1; funext a; apply Fin.ext
  match a with
  | ⟨0, _⟩ => show win2_0.index t (0 : Fin 2) * 400 + 1 * r.val = R.val; omega
  | ⟨1, _⟩ => show win2_0.index t (1 : Fin 2) * 10000 + 1 * q.val = q.val; omega

theorem whole2_1 (c : Dev nD) (t : Fin cfg2.N) : iblk2 V c 1 t = V c main_call0_v5 := by
  obtain ⟨-, -, e10, e11, -⟩ := block_indices2 t
  unfold iblk2; funext y
  show V c main_call0_v5 (((cfg2.win 1).blk t).view.emb y) = V c main_call0_v5 y
  congr 1; funext a; apply Fin.ext
  match a with
  | ⟨0, _⟩ => show win2_1.index t (0 : Fin 2) * 10000 + 1 * (y 0).val = (y 0).val; omega
  | ⟨1, _⟩ => show win2_1.index t (1 : Fin 2) * 16 + 1 * (y 1).val = (y 1).val; omega
theorem whole2_2 (c : Dev nD) (t : Fin cfg2.N) : iblk2 V c 2 t = V c main_call0_v6 := by
  obtain ⟨-, -, -, -, e20, e21, -⟩ := block_indices2 t
  unfold iblk2; funext y
  show V c main_call0_v6 (((cfg2.win 2).blk t).view.emb y) = V c main_call0_v6 y
  congr 1; funext a; apply Fin.ext
  match a with
  | ⟨0, _⟩ => show win2_2.index t (0 : Fin 2) * 1 + 1 * (y 0).val = (y 0).val; omega
  | ⟨1, _⟩ => show win2_2.index t (1 : Fin 2) * 16 + 1 * (y 1).val = (y 1).val; omega

/-- The block's logits at (r, j) are the logits of row 400 t + r. -/
theorem block_logits (c : Dev nD) (t : Fin cfg2.N) (r : Fin 400) (j : Fin 16) (R : Fin 10000) (hR : R.val = t.val * 400 + r.val) :
    Payloads.blockLogits (iblk2 V c 0 t) (iblk2 V c 1 t) (iblk2 V c 2 t) (ix2 r j)
      = logitEntry (V c main_arg1) (V c main_call0_v5) (V c main_call0_v6) R j := by
  rw [Payloads.blockLogits_apply, whole2_1, whole2_2]
  unfold logitEntry
  congr 1
  refine Finset.sum_congr rfl fun q _ => ?_
  rw [adjacency_rows2 V c t r q R hR]

/-- What point t writes back is rows 400 t .. 400 t + 399 of the log-softmax array. -/
theorem flushed2 (c : Dev nD) (t : Fin cfg2.N) :
    (dat2 V c).flushed 3 t = ((cfg2.win 3).blk t).view.read (Elt Ideal) (logSoftmaxArray V c) := by
  show (cfg2.win 3).cut (grid2.coords t) ((dat2 V c).after 3 t) = _
  rw [after2_3]
  unfold out2_3
  rw [View.canon_unit_zero origin2'']
  simp only [View.ld_unit_zero (S := S400x10000) origin2'', View.ld_unit_zero (S := S10000x16) origin2'',
    View.ld_unit_zero (S := S1x16) origin2'']
  funext j
  obtain ⟨r, jj, rfl⟩ : ∃ (r : Fin 400) (jj : Fin 16), j = ix2 r jj := ⟨j 0, j 1, eq_ix2 j⟩
  show k2_pay1 (F := Ideal) (iblk2 V c 0 t) (iblk2 V c 1 t) (iblk2 V c 2 t) (ix2 r jj)
    = logSoftmaxArray V c (((cfg2.win 3).blk t).view.emb (ix2 r jj))
  obtain ⟨-, -, -, -, -, -, e30, e31⟩ := block_indices2 t
  have ht : t.val < 25 := t.isLt
  have hr : r.val < 400 := r.isLt
  have eo : ((cfg2.win 3).blk t).view.emb (ix2 r jj) = ix2 (⟨t.val * 400 + r.val, by omega⟩ : Fin 10000) jj := by
    funext a; apply Fin.ext
    match a with
    | ⟨0, _⟩ => show win2_3.index t (0 : Fin 2) * 400 + 1 * r.val = t.val * 400 + r.val; omega
    | ⟨1, _⟩ => show win2_3.index t (1 : Fin 2) * 16 + 1 * jj.val = jj.val; omega
  rw [eo, Payloads.pass2_eq, Payloads.blockLogSoftmax_apply]
  show _ = logSoftmaxEntry (V c main_arg1) (V c main_call0_v5) (V c main_call0_v6) ⟨t.val * 400 + r.val, _⟩ jj
  unfold logSoftmaxEntry
  simp only [block_logits V c t r _ ⟨t.val * 400 + r.val, by omega⟩ rfl]

/-- An index of the result array is in point t's block iff its coordinates are in the block's ranges. -/
theorem mem_block2 (t : Fin cfg2.N) (i : S10000x16.Idx) :
    i ∈ ((cfg2.win 3).blk t).view.set ↔ ∀ a : Fin 2, win2_3.index t a * S400x16.size a ≤ (i a).val ∧ (i a).val < win2_3.index t a * S400x16.size a + S400x16.size a := by
  show i ∈ ((View.whole main_v0).slice (win2_3.rect t)).set ↔ _
  rw [View.set_slice_whole, Rect.mem_set_unit]
  exact Iff.rfl

/-- After the third launch its result array is the log-softmax array of the arrays it read: row n is written by
    point n / 400. -/
theorem final2 (c : Dev nD) : (dat2 V c).arrAt 3 cfg2.N = logSoftmaxArray V c :=
  (dat2 V c).arrAt_eq_of_cover 3 (logSoftmaxArray V c) (fun t _ => flushed2 V c t) fun i => by
    have hi0 : (i 0).val < 10000 := (i 0).isLt
    have hi1 : (i 1).val < 16 := (i 1).isLt
    let t : Fin cfg2.N := ⟨(i 0).val / 400, by show (i 0).val / 400 < 25; omega⟩
    obtain ⟨-, -, -, -, -, -, e30, e31⟩ := block_indices2 t
    have et : t.val = (i 0).val / 400 := rfl
    refine ⟨t, flush2_3 t, ?_⟩
    rw [mem_block2]
    intro a
    match a with
    | ⟨0, _⟩ => show win2_3.index t (0 : Fin 2) * 400 ≤ (i 0).val ∧ (i 0).val < win2_3.index t (0 : Fin 2) * 400 + 400; omega
    | ⟨1, _⟩ => show win2_3.index t (1 : Fin 2) * 16 ≤ (i 1).val ∧ (i 1).val < win2_3.index t (1 : Fin 2) * 16 + 16; omega

end Cert.KernelIdeal.Regions

end
-- ==== Proof.KernelBoundaries.lean ====
/-
  The idealized kernel's result array as one function of the nine argument arrays.

  The run passes through six boundaries: the host's two slices of W1 and its reshape of fcb, the first launch, the
  reshape of b1, the second launch, the reshape of b2, the third launch. Reading each boundary's contents back to the
  launch memory — an argument no operation wrote is still as launched, a host operation's result is that operation
  of an argument, a launch's result array is what its write-backs left (KernelRegion0/1/2) — composes the three
  launches into the specification's split arrangement (GraphConvArrays.splitArray).
-/
import proofs.«147795_g18923625906521_cont_8to1_898_2_alg».proof.Proof.KernelRegion0
import proofs.«147795_g18923625906521_cont_8to1_898_2_alg».proof.Proof.KernelRegion1
import proofs.«147795_g18923625906521_cont_8to1_898_2_alg».proof.Proof.KernelRegion2
import Idealize.ShloMosaic.Lib.StableHlo.Run
import Idealize.ShloMosaic.Lib.ValueLayout

set_option maxRecDepth 16384

noncomputable section

namespace Cert.KernelIdeal.Boundaries

open Cert.KernelIdeal Cert.KernelIdeal.Gen Cert.KernelIdeal.Regions Idealize.ShloMosaic Idealize.ShloMosaic.TcCoe
open Idealize.ShloMosaic.ValueIdx Idealize.ShloMosaic.Pipeline Idealize.SL.Sem Idealize.ShloMosaic.StableHlo

variable (m : (ℓ : Loc nD τ sig) → Buf (Elt Ideal) ℓ) (ρ : Dev nD → PrngReg)

/-- A buffer none of a stretch's host operations writes keeps its contents across the stretch. -/
local macro "unwritten_by " ops:ident : tactic => `(tactic| exact StableHlo.after_of_forall_not_mem _ _ (List.forall_iff_forall_mem.mp (by
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-! ### At the first launch's entry -/

theorem entry0_x (c : Dev nD) : W1 m ρ c (Proc.devRef .tc main_arg0) = m ((c : Thread nD τ).loc main_arg0) :=
  (show W1 m ρ c (Proc.devRef .tc main_arg0) = W0 m ρ c (Proc.devRef .tc main_arg0) by unwritten_by hostOps0).trans rfl
theorem entry0_emb (c : Dev nD) : W1 m ρ c (Proc.devRef .tc main_arg2) = m ((c : Thread nD τ).loc main_arg2) :=
  (show W1 m ρ c (Proc.devRef .tc main_arg2) = W0 m ρ c (Proc.devRef .tc main_arg2) by unwritten_by hostOps0).trans rfl
theorem entry0_fcW (c : Dev nD) : W1 m ρ c (Proc.devRef .tc main_arg3) = m ((c : Thread nD τ).loc main_arg3) :=
  (show W1 m ρ c (Proc.devRef .tc main_arg3) = W0 m ρ c (Proc.devRef .tc main_arg3) by unwritten_by hostOps0).trans rfl
theorem entry0_adj (c : Dev nD) : W1 m ρ c (Proc.devRef .tc main_arg1) = m ((c : Thread nD τ).loc main_arg1) :=
  (show W1 m ρ c (Proc.devRef .tc main_arg1) = W0 m ρ c (Proc.devRef .tc main_arg1) by unwritten_by hostOps0).trans rfl
theorem entry0_b1 (c : Dev nD) : W1 m ρ c (Proc.devRef .tc main_arg6) = m ((c : Thread nD τ).loc main_arg6) :=
  (show W1 m ρ c (Proc.devRef .tc main_arg6) = W0 m ρ c (Proc.devRef .tc main_arg6) by unwritten_by hostOps0).trans rfl
theorem entry0_W2 (c : Dev nD) : W1 m ρ c (Proc.devRef .tc main_arg7) = m ((c : Thread nD τ).loc main_arg7) :=
  (show W1 m ρ c (Proc.devRef .tc main_arg7) = W0 m ρ c (Proc.devRef .tc main_arg7) by unwritten_by hostOps0).trans rfl
theorem entry0_b2 (c : Dev nD) : W1 m ρ c (Proc.devRef .tc main_arg8) = m ((c : Thread nD τ).loc main_arg8) :=
  (show W1 m ρ c (Proc.devRef .tc main_arg8) = W0 m ρ c (Proc.devRef .tc main_arg8) by unwritten_by hostOps0).trans rfl

/-- The upper 128 rows of W1. -/
theorem entry0_upper (c : Dev nD) : (W1 m ρ c (Proc.devRef .tc main_call0_v0) : S128x32.Idx → EReal)
    = extractStridedSlice S128x32 ![0, 0] (m ((c : Thread nD τ).loc main_arg5)) slices_S192x32_S128x32_0_0 := by
  show StableHlo.after hostOps0 (W0 m ρ c) (Proc.devRef .tc main_call0_v0) = _
  after_results
  rfl
/-- The lower 64 rows of W1. -/
theorem entry0_lower (c : Dev nD) : (W1 m ρ c (Proc.devRef .tc main_call0_v1) : S64x32.Idx → EReal)
    = extractStridedSlice S64x32 ![128, 0] (m ((c : Thread nD τ).loc main_arg5)) slices_S192x32_S64x32_128_0 := by
  show StableHlo.after hostOps0 (W0 m ρ c) (Proc.devRef .tc main_call0_v1) = _
  after_results
  rfl
/-- fcb as a 1 x 64 row. -/
theorem entry0_fcb (c : Dev nD) : (W1 m ρ c (Proc.devRef .tc main_call0_v2) : S1x64.Idx → EReal)
    = shapeCast S1x64 (m ((c : Thread nD τ).loc main_arg4)) shapeCasts_S64_S1x64 := by
  show StableHlo.after hostOps0 (W0 m ρ c) (Proc.devRef .tc main_call0_v2) = _
  after_results
  rfl

/-! ### At the second launch's entry -/

theorem entry1_adj (c : Dev nD) : W3 m ρ c (Proc.devRef .tc main_arg1) = m ((c : Thread nD τ).loc main_arg1) :=
  (show W3 m ρ c (Proc.devRef .tc main_arg1) = W2 m ρ c (Proc.devRef .tc main_arg1) by unwritten_by hostOps1).trans
    ((W2_of_ne m ρ c main_arg1 (by decide)).trans (entry0_adj m ρ c))
theorem entry1_W2 (c : Dev nD) : W3 m ρ c (Proc.devRef .tc main_arg7) = m ((c : Thread nD τ).loc main_arg7) :=
  (show W3 m ρ c (Proc.devRef .tc main_arg7) = W2 m ρ c (Proc.devRef .tc main_arg7) by unwritten_by hostOps1).trans
    ((W2_of_ne m ρ c main_arg7 (by decide)).trans (entry0_W2 m ρ c))
theorem entry1_b2 (c : Dev nD) : W3 m ρ c (Proc.devRef .tc main_arg8) = m ((c : Thread nD τ).loc main_arg8) :=
  (show W3 m ρ c (Proc.devRef .tc main_arg8) = W2 m ρ c (Proc.devRef .tc main_arg8) by unwritten_by hostOps1).trans
    ((W2_of_ne m ρ c main_arg8 (by decide)).trans (entry0_b2 m ρ c))
/-- The first launch's result. -/
theorem entry1_proj (c : Dev nD) : W3 m ρ c (Proc.devRef .tc main_call0_v3) = firstProjection (V1 m ρ) c :=
  (show W3 m ρ c (Proc.devRef .tc main_call0_v3) = W2 m ρ c (Proc.devRef .tc main_call0_v3) by unwritten_by hostOps1).trans
    ((W2_arr m ρ c 6).trans (final0 (V1 m ρ) c))
/-- b1 as a 1 x 32 row. -/
theorem entry1_b1 (c : Dev nD) : (W3 m ρ c (Proc.devRef .tc main_call0_v4) : S1x32.Idx → EReal)
    = shapeCast S1x32 (m ((c : Thread nD τ).loc main_arg6)) shapeCasts_S32_S1x32 := by
  have e : (W3 m ρ c (Proc.devRef .tc main_call0_v4) : S1x32.Idx → EReal)
      = shapeCast S1x32 (W2 m ρ c (Proc.devRef .tc main_arg6)) shapeCasts_S32_S1x32 := by
    show StableHlo.after hostOps1 (W2 m ρ c) (Proc.devRef .tc main_call0_v4) = _
    after_results
    rfl
  rw [e, W2_of_ne m ρ c main_arg6 (by decide), entry0_b1]

/-! ### At the third launch's entry -/

theorem entry2_adj (c : Dev nD) : W5 m ρ c (Proc.devRef .tc main_arg1) = m ((c : Thread nD τ).loc main_arg1) :=
  (show W5 m ρ c (Proc.devRef .tc main_arg1) = W4 m ρ c (Proc.devRef .tc main_arg1) by unwritten_by hostOps2).trans
    (((W4_arr m ρ c 0).trans (((dat1 (V3 m ρ) c).arrAt_in 0 rfl _).trans (A_eq1 (V3 m ρ) c 0))).trans (entry1_adj m ρ c))
/-- The second launch's result. -/
theorem entry2_proj (c : Dev nD) : W5 m ρ c (Proc.devRef .tc main_call0_v5) = secondProjection (V3 m ρ) c :=
  (show W5 m ρ c (Proc.devRef .tc main_call0_v5) = W4 m ρ c (Proc.devRef .tc main_call0_v5) by unwritten_by hostOps2).trans
    ((W4_arr m ρ c 4).trans (final1 (V3 m ρ) c))
/-- b2 as a 1 x 16 row. -/
theorem entry2_b2 (c : Dev nD) : (W5 m ρ c (Proc.devRef .tc main_call0_v6) : S1x16.Idx → EReal)
    = shapeCast S1x16 (m ((c : Thread nD τ).loc main_arg8)) shapeCasts_S16_S1x16 := by
  have e : (W5 m ρ c (Proc.devRef .tc main_call0_v6) : S1x16.Idx → EReal)
      = shapeCast S1x16 (W4 m ρ c (Proc.devRef .tc main_arg8)) shapeCasts_S16_S1x16 := by
    show StableHlo.after hostOps2 (W4 m ρ c) (Proc.devRef .tc main_call0_v6) = _
    after_results
    rfl
  rw [e, W4_of_ne m ρ c main_arg8 (by decide), entry1_b2]

/-- The result array after the third launch. -/
theorem result_eq (c : Dev nD) : W6 m ρ c (Proc.devRef .tc main_v0) = logSoftmaxArray (V5 m ρ) c :=
  (W6_arr m ρ c 3).trans (final2 (V5 m ρ) c)

end Cert.KernelIdeal.Boundaries

end
-- ==== Proof.GraphConvSpec.lean ====
/-
  The two-layer graph convolution both programs compute, entry by entry on the extended reals.

  Inputs: node features x (10000 x 128), a dense adjacency adj (10000 x 10000), an embedding table emb (10000 x 64)
  looked up at every node in order, a dense layer (fcW, fcb) on the embeddings, the first layer's weight W1 (192 x 32:
  128 rows for the features, 64 for the embedded part) and bias b1, the second layer's W2 (32 x 16) and b2.

  The first projection z = [x, emb fcW + fcb] W1 comes in two arrangements: the reference multiplies the concatenated
  192 columns by W1; the kernel splits W1 into its upper 128 rows and lower 64 rows and multiplies out
  x W1a + emb (fcW W1b) + fcb W1b. From z on both compute relu(adj z + b1) W2, then adj (.) + b2, then a
  log-softmax along each row of 16, the kernel as o - (log sum exp (o - M) + M) and the reference as
  (o - M) - log sum exp (o - M), with M the row's maximum.
-/
import Idealize.ShloMosaic.PureOps.Ideal

noncomputable section

namespace Cert.GraphConv

open Idealize.ShloMosaic

variable (x : Fin 10000 → Fin 128 → EReal) (adj : Fin 10000 → Fin 10000 → EReal) (emb : Fin 10000 → Fin 64 → EReal)
  (fcW : Fin 64 → Fin 64 → EReal) (fcb : Fin 64 → EReal) (W1 : Fin 192 → Fin 32 → EReal) (b1 : Fin 32 → EReal)
  (W2 : Fin 32 → Fin 16 → EReal) (b2 : Fin 16 → EReal)

/-- Row k of the upper block of W1 (the rows that meet the node features). -/
def upper (k : Fin 128) : Fin 192 := ⟨k.val, by omega⟩
/-- Row f of the lower block of W1 (the rows that meet the embedded part). -/
def lower (f : Fin 64) : Fin 192 := ⟨128 + f.val, by omega⟩

/-- The concatenated feature row the reference builds: the 128 node features, then the 64 entries of emb fcW + fcb. -/
def features (n : Fin 10000) (k : Fin 192) : EReal :=
  if h : k.val < 128 then x n ⟨k.val, h⟩
  else (∑ e : Fin 64, emb n e * fcW e ⟨k.val - 128, by omega⟩) + fcb ⟨k.val - 128, by omega⟩

/-- The first projection as the reference arranges it: the concatenated row times W1. -/
def projConcat (n : Fin 10000) (j : Fin 32) : EReal := ∑ k : Fin 192, features x emb fcW fcb n k * W1 k j

/-- The first projection as the kernel arranges it: x W1a + emb (fcW W1b) + fcb W1b. -/
def projSplit (n : Fin 10000) (j : Fin 32) : EReal :=
  ((∑ k : Fin 128, x n k * W1 (upper k) j)
    + ∑ e : Fin 64, emb n e * (∑ f : Fin 64, fcW e f * W1 (lower f) j))
  + ∑ f : Fin 64, fcb f * W1 (lower f) j

/-- The hidden layer from a first projection z: relu (adj z + b1). -/
def hidden (z : Fin 10000 → Fin 32 → EReal) (n : Fin 10000) (j : Fin 32) : EReal :=
  max ((∑ k : Fin 10000, adj n k * z k j) + b1 j) 0

/-- The second projection: hidden W2. -/
def proj2 (z : Fin 10000 → Fin 32 → EReal) (n : Fin 10000) (j : Fin 16) : EReal :=
  ∑ k : Fin 32, hidden adj b1 z n k * W2 k j

/-- The logits: adj (hidden W2) + b2. -/
def logits (z : Fin 10000 → Fin 32 → EReal) (n : Fin 10000) (j : Fin 16) : EReal :=
  (∑ k : Fin 10000, adj n k * proj2 adj b1 W2 z k j) + b2 j

/-- A row's maximum, folded from the bottom element. -/
def rowMax (o : Fin 10000 → Fin 16 → EReal) (n : Fin 10000) : EReal :=
  (Finset.univ : Finset (Fin 16)).fold max ⊥ (fun j => o n j)

/-- The log of the row's sum of exponentials of the shifted entries. -/
def logSumExp (o : Fin 10000 → Fin 16 → EReal) (n : Fin 10000) : EReal :=
  Ideal.log (∑ j : Fin 16, Ideal.exp (o n j - rowMax o n))

/-- The kernel's log-softmax: o - (log sum exp (o - M) + M). -/
def logSoftmaxUnshifted (o : Fin 10000 → Fin 16 → EReal) (n : Fin 10000) (j : Fin 16) : EReal :=
  o n j - (logSumExp o n + rowMax o n)

/-- The reference's log-softmax: (o - M) - log sum exp (o - M). -/
def logSoftmaxShifted (o : Fin 10000 → Fin 16 → EReal) (n : Fin 10000) (j : Fin 16) : EReal :=
  (o n j - rowMax o n) - logSumExp o n

/-- What the kernel computes. -/
def outSplit (n : Fin 10000) (j : Fin 16) : EReal :=
  logSoftmaxUnshifted (logits adj b1 W2 b2 (projSplit x emb fcW fcb W1)) n j

/-- What the reference computes. -/
def outConcat (n : Fin 10000) (j : Fin 16) : EReal :=
  logSoftmaxShifted (logits adj b1 W2 b2 (projConcat x emb fcW fcb W1)) n j

end Cert.GraphConv

end
-- ==== Proof.GraphConvArrays.lean ====
/-
  The two-layer graph convolution of GraphConvSpec stated over the programs' arrays: a rank-2 array is read as the
  matrix of its entries at (row, column), a rank-1 array as the vector of its entries, and the result is the
  10000 x 16 array whose entry at (n, j) is the specification's.
-/
import proofs.«147795_g18923625906521_cont_8to1_898_2_alg».proof.Proof.GraphConvSpec
import Idealize.ShloMosaic.Lib.ValueIdx

noncomputable section

namespace Cert.GraphConv

open Idealize.ShloMosaic Idealize.ShloMosaic.ValueIdx

/-- A rank-2 array as a matrix. -/
def mat {a b : ℕ} (v : (⟨2, ![a, b]⟩ : Shape).Idx → EReal) : Fin a → Fin b → EReal := fun n k => v (ix2 n k)
/-- A rank-1 array as a vector. -/
def vec {a : ℕ} (v : (⟨1, ![a]⟩ : Shape).Idx → EReal) : Fin a → EReal := fun k => v (ix1 k)

variable (x : (⟨2, ![10000, 128]⟩ : Shape).Idx → EReal) (adj : (⟨2, ![10000, 10000]⟩ : Shape).Idx → EReal)
  (emb : (⟨2, ![10000, 64]⟩ : Shape).Idx → EReal) (fcW : (⟨2, ![64, 64]⟩ : Shape).Idx → EReal)
  (fcb : (⟨1, ![64]⟩ : Shape).Idx → EReal) (W1 : (⟨2, ![192, 32]⟩ : Shape).Idx → EReal)
  (b1 : (⟨1, ![32]⟩ : Shape).Idx → EReal) (W2 : (⟨2, ![32, 16]⟩ : Shape).Idx → EReal)
  (b2 : (⟨1, ![16]⟩ : Shape).Idx → EReal)

/-- The kernel's result array as a function of the nine argument arrays. -/
def splitArray : (⟨2, ![10000, 16]⟩ : Shape).Idx → EReal := fun i =>
  outSplit (mat x) (mat adj) (mat emb) (mat fcW) (vec fcb) (mat W1) (vec b1) (mat W2) (vec b2) (i 0) (i 1)

/-- The reference's result array as a function of the nine argument arrays. -/
def concatArray : (⟨2, ![10000, 16]⟩ : Shape).Idx → EReal := fun i =>
  outConcat (mat x) (mat adj) (mat emb) (mat fcW) (vec fcb) (mat W1) (vec b1) (mat W2) (vec b2) (i 0) (i 1)

end Cert.GraphConv

end
-- ==== Proof.KernelResultValue.lean ====
/-
  The idealized kernel's result array is the specification's split arrangement of the nine argument arrays.

  Each launch's result, read with the boundary contents of KernelBoundaries, is one stage of GraphConvSpec: the first
  launch's array is the split first projection (the two slices of W1 are its upper and lower blocks of rows, the
  reshaped fcb its bias vector), the second's is relu (adj z + b1) W2, the third's the log-softmax of adj (.) + b2 in
  the kernel's spelling.
-/
import proofs.«147795_g18923625906521_cont_8to1_898_2_alg».proof.Proof.KernelBoundaries
import proofs.«147795_g18923625906521_cont_8to1_898_2_alg».proof.Proof.GraphConvArrays
import Idealize.ShloMosaic.Lib.ValueLayout

set_option maxRecDepth 16384

noncomputable section

namespace Cert.KernelIdeal.ResultValue

open Cert.KernelIdeal Cert.KernelIdeal.Gen Cert.KernelIdeal.Regions Cert.KernelIdeal.Boundaries Cert.GraphConv
open Idealize.ShloMosaic Idealize.ShloMosaic.TcCoe Idealize.ShloMosaic.ValueIdx Idealize.ShloMosaic.Pipeline Idealize.SL.Sem

/-! ### The three stages over arbitrary arrays -/

/-- The first launch's payload on the two slices of W1 and the reshaped fcb is the split first projection. -/
theorem firstStage (x : FVec Ideal S10000x128 .f32) (emb : FVec Ideal S10000x64 .f32) (fcW : FVec Ideal S64x64 .f32)
    (fcb : FVec Ideal S64 .f32) (W1 : FVec Ideal S192x32 .f32) (n : Fin 10000) (j : Fin 32) :
    k0_pay1 (F := Ideal) fcW (extractStridedSlice S64x32 ![128, 0] W1 slices_S192x32_S64x32_128_0)
        (shapeCast S1x64 fcb shapeCasts_S64_S1x64) (extractStridedSlice S64x32 ![128, 0] W1 slices_S192x32_S64x32_128_0) x
        (extractStridedSlice S128x32 ![0, 0] W1 slices_S192x32_S128x32_0_0) emb (ix2 n j)
      = projSplit (mat x) (mat emb) (mat fcW) (vec fcb) (mat W1) n j := by
  rw [Payloads.prelude_apply]
  unfold projSplit mat vec
  have eu : ∀ k : Fin 128, extractStridedSlice S128x32 ![0, 0] W1 slices_S192x32_S128x32_0_0 (ix2 k j) = W1 (ix2 (upper k) j) :=
    fun k => slice2_axis0_apply 0 W1 slices_S192x32_S128x32_0_0 k j (upper k) (by show k.val = 0 + k.val; omega)
  have el : ∀ f : Fin 64, extractStridedSlice S64x32 ![128, 0] W1 slices_S192x32_S64x32_128_0 (ix2 f j) = W1 (ix2 (lower f) j) :=
    fun f => slice2_axis0_apply 128 W1 slices_S192x32_S64x32_128_0 f j (lower f) rfl
  have eb : ∀ f : Fin 64, shapeCast S1x64 fcb shapeCasts_S64_S1x64 (ix2 (0 : Fin 1) f) = fcb (ix1 f) :=
    fun f => shapeCast_a_1a_apply fcb shapeCasts_S64_S1x64 0 f
  simp only [eu, el, eb]

/-- relu (A Z + b1) W with b1 reshaped to a row is the specification's second projection. -/
theorem secondStage (A : FVec Ideal S10000x10000 .f32) (Z : FVec Ideal S10000x32 .f32) (b1 : FVec Ideal S32 .f32)
    (W : FVec Ideal S32x16 .f32) (n : Fin 10000) (j : Fin 16) :
    hiddenTimes A Z (shapeCast S1x32 b1 shapeCasts_S32_S1x32) W n j = proj2 (mat A) (vec b1) (mat W) (mat Z) n j := by
  unfold hiddenTimes proj2 Cert.GraphConv.hidden mat vec
  have eb : ∀ k : Fin 32, shapeCast S1x32 b1 shapeCasts_S32_S1x32 (ix2 (0 : Fin 1) k) = b1 (ix1 k) :=
    fun k => shapeCast_a_1a_apply b1 shapeCasts_S32_S1x32 0 k
  simp only [eb]

/-- The third launch's entry with b2 reshaped to a row is the kernel's log-softmax of the logits A Z + b2. -/
theorem thirdStage (A : FVec Ideal S10000x10000 .f32) (Z : FVec Ideal S10000x16 .f32) (b2 : FVec Ideal S16 .f32)
    (n : Fin 10000) (j : Fin 16) :
    logSoftmaxEntry A Z (shapeCast S1x16 b2 shapeCasts_S16_S1x16) n j
      = logSoftmaxUnshifted (fun n j => (∑ k : Fin 10000, mat A n k * mat Z k j) + vec b2 j) n j := by
  unfold logSoftmaxEntry logSoftmaxUnshifted logSumExp rowMax logitEntry mat vec
  have eb : ∀ k : Fin 16, shapeCast S1x16 b2 shapeCasts_S16_S1x16 (ix2 (0 : Fin 1) k) = b2 (ix1 k) :=
    fun k => shapeCast_a_1a_apply b2 shapeCasts_S16_S1x16 0 k
  simp only [eb]

/-! ### The run's result -/

variable (m : (ℓ : Loc nD τ sig) → Buf (Elt Ideal) ℓ) (ρ : Dev nD → PrngReg)

/-- The first launch's array is the split first projection of the arguments. -/
theorem firstProjection_eq (c : Dev nD) :
    mat (firstProjection (V1 m ρ) c)
      = projSplit (mat (m ((c : Thread nD τ).loc main_arg0))) (mat (m ((c : Thread nD τ).loc main_arg2)))
          (mat (m ((c : Thread nD τ).loc main_arg3))) (vec (m ((c : Thread nD τ).loc main_arg4)))
          (mat (m ((c : Thread nD τ).loc main_arg5))) := by
  funext n j
  show k0_pay1 (F := Ideal) (W1 m ρ c (Proc.devRef .tc main_arg3)) (W1 m ρ c (Proc.devRef .tc main_call0_v1))
      (W1 m ρ c (Proc.devRef .tc main_call0_v2)) (W1 m ρ c (Proc.devRef .tc main_call0_v1)) (W1 m ρ c (Proc.devRef .tc main_arg0))
      (W1 m ρ c (Proc.devRef .tc main_call0_v0)) (W1 m ρ c (Proc.devRef .tc main_arg2)) (ix2 n j) = _
  rw [entry0_fcW, entry0_lower, entry0_fcb, entry0_x, entry0_upper, entry0_emb]
  exact firstStage _ _ _ _ _ n j

/-- The second launch's array is the second projection of the arguments. -/
theorem secondProjection_eq (c : Dev nD) :
    mat (secondProjection (V3 m ρ) c)
      = proj2 (mat (m ((c : Thread nD τ).loc main_arg1))) (vec (m ((c : Thread nD τ).loc main_arg6)))
          (mat (m ((c : Thread nD τ).loc main_arg7)))
          (projSplit (mat (m ((c : Thread nD τ).loc main_arg0))) (mat (m ((c : Thread nD τ).loc main_arg2)))
            (mat (m ((c : Thread nD τ).loc main_arg3))) (vec (m ((c : Thread nD τ).loc main_arg4)))
            (mat (m ((c : Thread nD τ).loc main_arg5)))) := by
  funext n j
  show hiddenTimes (W3 m ρ c (Proc.devRef .tc main_arg1)) (W3 m ρ c (Proc.devRef .tc main_call0_v3))
      (W3 m ρ c (Proc.devRef .tc main_call0_v4)) (W3 m ρ c (Proc.devRef .tc main_arg7)) n j = _
  rw [entry1_adj, entry1_proj, entry1_b1, entry1_W2, secondStage, firstProjection_eq]

/-- The result array after the run is the specification's split arrangement of the nine argument arrays. -/
theorem result_value (c : Dev nD) :
    W6 m ρ c (Proc.devRef .tc main_v0)
      = splitArray (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [result_eq]
  funext i
  obtain ⟨n, j, rfl⟩ : ∃ (n : Fin 10000) (j : Fin 16), i = ix2 n j := ⟨i 0, i 1, eq_ix2 i⟩
  show logSoftmaxEntry (W5 m ρ c (Proc.devRef .tc main_arg1)) (W5 m ρ c (Proc.devRef .tc main_call0_v5))
      (W5 m ρ c (Proc.devRef .tc main_call0_v6)) n j = _
  rw [entry2_adj, entry2_proj, entry2_b2, thirdStage, secondProjection_eq]
  rfl

end Cert.KernelIdeal.ResultValue

end
-- ==== Proof.LibRealSum.lean ====
/-
  Finite sums of real numbers taken inside the extended reals.

  The extended reals do not distribute (∞ · (1 + (-1)) is not ∞ + (-∞)), so a factor cannot in general be moved
  across a sum there. When every summand and the factor are real numbers it can: the sum of the reals' images is the
  image of the real sum, and the real numbers are a field. The lemmas here are that statement in the shape a
  contraction with folded scales needs: Σ_k (a_k · s) · (b_k · t) = (Σ_k a_k · b_k) · (t · s).
-/
import Idealize.ShloMosaic.PureOps.Ideal

noncomputable section

namespace Cert.Lib.RealSum

/-- A finite sum of real numbers, taken in the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Σ_k (a_k · s) · (b_k · t) = (Σ_k a_k · b_k) · (t · s) for real numbers a_k, b_k, s, t, read in the extended reals:
    a scale on each operand of a contraction is one scale on the contraction. -/
theorem sum_rescale_real {n : ℕ} (a b : Fin n → ℝ) (s t : ℝ) :
    ∑ k, (((a k : ℝ) : EReal) * (s : EReal)) * (((b k : ℝ) : EReal) * (t : EReal))
      = (∑ k, ((a k : ℝ) : EReal) * ((b k : ℝ) : EReal)) * ((t : EReal) * (s : EReal)) := by
  simp only [← EReal.coe_mul]
  rw [coe_sum, coe_sum, ← EReal.coe_mul, Finset.sum_mul]
  exact congrArg _ (Finset.sum_congr rfl fun k _ => by ring)

/-- The same for extended reals each known to be a real number. -/
theorem sum_rescale {n : ℕ} (q w : Fin n → EReal) (s t : EReal)
    (hq : ∀ k, ∃ r : ℝ, q k = (r : EReal)) (hw : ∀ k, ∃ r : ℝ, w k = (r : EReal))
    (hs : ∃ r : ℝ, s = (r : EReal)) (ht : ∃ r : ℝ, t = (r : EReal)) :
    ∑ k, (q k * s) * (w k * t) = (∑ k, q k * w k) * (t * s) := by
  choose a ha using hq
  choose b hb using hw
  obtain ⟨s', rfl⟩ := hs
  obtain ⟨t', rfl⟩ := ht
  simp only [ha, hb]
  exact sum_rescale_real a b s' t'

end Cert.Lib.RealSum

end
-- ==== Proof.GraphConvAlgebra.lean ====
/-
  The two arrangements of the graph convolution agree when every input entry is a real number.

  Two identities carry the result. The first projection: a row of 192 columns against W1 is the sum over the
  first 128 columns (the node features against W1's upper block) plus the sum over the last 64 (the entries of
  emb fcW + fcb against W1's lower block), and the latter multiplies out to emb (fcW W1b) + fcb W1b. The
  log-softmax: o - (L + M) = (o - M) - L. Both are identities of real numbers; on the extended reals
  multiplication does not distribute over addition and subtraction does not regroup (∞ - ∞), so each is proved
  for entries known to be real numbers, and the entries between the two (hidden layer, logits, row maximum,
  log of the sum of exponentials) are shown to be real numbers whenever the inputs are.
-/
import proofs.«147795_g18923625906521_cont_8to1_898_2_alg».proof.Proof.GraphConvArrays
import proofs.«147795_g18923625906521_cont_8to1_898_2_alg».proof.Proof.LibRealSum

noncomputable section

namespace Cert.GraphConv

open Idealize.ShloMosaic Idealize.ShloMosaic.ValueIdx
open Cert.Lib.RealSum (coe_sum)

/-! ## Real numbers inside the extended reals: sums, products and maxima of real numbers are real numbers -/

/-- The sum of two real numbers is a real number. -/
theorem real_add {u v : EReal} (hu : ∃ r : ℝ, u = (r : EReal)) (hv : ∃ r : ℝ, v = (r : EReal)) :
    ∃ r : ℝ, u + v = (r : EReal) := by
  obtain ⟨a, rfl⟩ := hu
  obtain ⟨b, rfl⟩ := hv
  exact ⟨a + b, (EReal.coe_add a b).symm⟩

/-- The larger of two real numbers is a real number: it is one of the two. -/
theorem real_max {u v : EReal} (hu : ∃ r : ℝ, u = (r : EReal)) (hv : ∃ r : ℝ, v = (r : EReal)) :
    ∃ r : ℝ, max u v = (r : EReal) := by
  rcases le_total u v with h | h
  · rw [max_eq_right h]; exact hv
  · rw [max_eq_left h]; exact hu

/-- A finite sum of products of real numbers is a real number. -/
theorem real_sum_mul {ι : Type} [Fintype ι] {a b : ι → EReal} (ha : ∀ k, ∃ r : ℝ, a k = (r : EReal))
    (hb : ∀ k, ∃ r : ℝ, b k = (r : EReal)) : ∃ r : ℝ, ∑ k, a k * b k = (r : EReal) := by
  choose p hp using ha
  choose q hq using hb
  refine ⟨∑ k, p k * q k, ?_⟩
  simp only [hp, hq, ← EReal.coe_mul]
  exact coe_sum Finset.univ _

/-- The maximum of finitely many real numbers, folded from the bottom element, is the bottom element over the
    empty set and a real number otherwise. -/
theorem real_fold_max {ι : Type} (f : ι → EReal) (hf : ∀ j, ∃ r : ℝ, f j = (r : EReal)) (s : Finset ι) :
    (s = ∅ ∧ s.fold max ⊥ f = ⊥) ∨ ∃ r : ℝ, s.fold max ⊥ f = (r : EReal) := by
  classical
  induction s using Finset.induction_on with
  | empty => exact Or.inl ⟨rfl, Finset.fold_empty⟩
  | insert a s ha ih =>
    right
    rw [Finset.fold_insert ha]
    rcases ih with ⟨-, h⟩ | h
    · rw [h, max_eq_left bot_le]; exact hf a
    · exact real_max (hf a) h

/-! ## The first projection -/

section Projection

variable (x : Fin 10000 → Fin 128 → EReal) (emb : Fin 10000 → Fin 64 → EReal)
  (fcW : Fin 64 → Fin 64 → EReal) (fcb : Fin 64 → EReal) (W1 : Fin 192 → Fin 32 → EReal)

/-- A sum over the 192 rows of W1 is the sum over its upper 128 rows plus the sum over its lower 64. -/
theorem sum_upper_lower (g : Fin 192 → EReal) :
    ∑ k, g k = (∑ k : Fin 128, g (upper k)) + ∑ f : Fin 64, g (lower f) :=
  Fin.sum_univ_add (a := 128) (b := 64) g

/-- The first 128 entries of the concatenated row are the node's features. -/
theorem features_upper (n : Fin 10000) (k : Fin 128) : features x emb fcW fcb n (upper k) = x n k := by
  unfold features
  have h : (upper k).val < 128 := k.isLt
  rw [dif_pos h]
  rfl

/-- The last 64 entries of the concatenated row are the entries of emb fcW + fcb. -/
theorem features_lower (n : Fin 10000) (f : Fin 64) :
    features x emb fcW fcb n (lower f) = (∑ e : Fin 64, emb n e * fcW e f) + fcb f := by
  unfold features
  have h : ¬ (lower f).val < 128 := by show ¬ (128 + f.val < 128); omega
  rw [dif_neg h]
  have e : ∀ p, (⟨(lower f).val - 128, p⟩ : Fin 64) = f := fun p => Fin.ext (by show 128 + f.val - 128 = f.val; omega)
  simp only [e]

/-- The identity of real numbers behind the two arrangements: with a the features' row, c the embedded row, w the
    dense layer, b its bias, u and v the columns of W1's upper and lower blocks,
    a·u + c·(w v) + b·v = a·u + (c w + b)·v. -/
theorem split_real (a : Fin 128 → ℝ) (c : Fin 64 → ℝ) (w : Fin 64 → Fin 64 → ℝ) (b : Fin 64 → ℝ)
    (u : Fin 128 → ℝ) (v : Fin 64 → ℝ) :
    ((∑ k, a k * u k) + ∑ e, c e * ∑ f, w e f * v f) + ∑ f, b f * v f
      = (∑ k, a k * u k) + ∑ f, ((∑ e, c e * w e f) + b f) * v f := by
  have h : ∑ f, ((∑ e, c e * w e f) + b f) * v f = (∑ e, c e * ∑ f, w e f * v f) + ∑ f, b f * v f := by
    simp only [add_mul, Finset.sum_add_distrib, Finset.sum_mul, Finset.mul_sum]
    rw [Finset.sum_comm]
    simp only [mul_assoc]
  rw [h, add_assoc]

/-- The kernel's split first projection is the reference's concatenated one, entry by entry. -/
theorem projSplit_eq_projConcat (hx : ∀ n k, ∃ r : ℝ, x n k = (r : EReal))
    (hemb : ∀ n e, ∃ r : ℝ, emb n e = (r : EReal)) (hfcW : ∀ e f, ∃ r : ℝ, fcW e f = (r : EReal))
    (hfcb : ∀ f, ∃ r : ℝ, fcb f = (r : EReal)) (hW1 : ∀ k j, ∃ r : ℝ, W1 k j = (r : EReal))
    (n : Fin 10000) (j : Fin 32) : projSplit x emb fcW fcb W1 n j = projConcat x emb fcW fcb W1 n j := by
  choose xr hxr using hx
  choose er her using hemb
  choose wr hwr using hfcW
  choose br hbr using hfcb
  choose w1 hw1 using hW1
  unfold projSplit projConcat
  rw [sum_upper_lower]
  simp only [features_upper, features_lower, hxr, her, hwr, hbr, hw1]
  simp only [← EReal.coe_mul, coe_sum, ← EReal.coe_add]
  exact congrArg _ (split_real (xr n) (er n) wr br (fun k => w1 (upper k) j) (fun f => w1 (lower f) j))

/-- Every entry of the split first projection is a real number. -/
theorem real_projSplit (hx : ∀ n k, ∃ r : ℝ, x n k = (r : EReal))
    (hemb : ∀ n e, ∃ r : ℝ, emb n e = (r : EReal)) (hfcW : ∀ e f, ∃ r : ℝ, fcW e f = (r : EReal))
    (hfcb : ∀ f, ∃ r : ℝ, fcb f = (r : EReal)) (hW1 : ∀ k j, ∃ r : ℝ, W1 k j = (r : EReal))
    (n : Fin 10000) (j : Fin 32) : ∃ r : ℝ, projSplit x emb fcW fcb W1 n j = (r : EReal) := by
  unfold projSplit
  exact real_add
    (real_add (real_sum_mul (hx n) (fun k => hW1 (upper k) j))
      (real_sum_mul (hemb n) (fun e => real_sum_mul (hfcW e) (fun f => hW1 (lower f) j))))
    (real_sum_mul hfcb (fun f => hW1 (lower f) j))

end Projection

/-! ## From the first projection to the logits: real numbers in, real numbers out -/

section Layers

variable (adj : Fin 10000 → Fin 10000 → EReal) (b1 : Fin 32 → EReal) (W2 : Fin 32 → Fin 16 → EReal)
  (b2 : Fin 16 → EReal) (z : Fin 10000 → Fin 32 → EReal)

theorem real_hidden (hadj : ∀ n k, ∃ r : ℝ, adj n k = (r : EReal)) (hb1 : ∀ j, ∃ r : ℝ, b1 j = (r : EReal))
    (hz : ∀ n j, ∃ r : ℝ, z n j = (r : EReal)) (n : Fin 10000) (j : Fin 32) :
    ∃ r : ℝ, hidden adj b1 z n j = (r : EReal) := by
  unfold hidden
  exact real_max (real_add (real_sum_mul (hadj n) (fun k => hz k j)) (hb1 j)) ⟨0, EReal.coe_zero.symm⟩

theorem real_proj2 (hadj : ∀ n k, ∃ r : ℝ, adj n k = (r : EReal)) (hb1 : ∀ j, ∃ r : ℝ, b1 j = (r : EReal))
    (hW2 : ∀ k j, ∃ r : ℝ, W2 k j = (r : EReal)) (hz : ∀ n j, ∃ r : ℝ, z n j = (r : EReal))
    (n : Fin 10000) (j : Fin 16) : ∃ r : ℝ, proj2 adj b1 W2 z n j = (r : EReal) := by
  unfold proj2
  exact real_sum_mul (fun k => real_hidden adj b1 z hadj hb1 hz n k) (fun k => hW2 k j)

theorem real_logits (hadj : ∀ n k, ∃ r : ℝ, adj n k = (r : EReal)) (hb1 : ∀ j, ∃ r : ℝ, b1 j = (r : EReal))
    (hW2 : ∀ k j, ∃ r : ℝ, W2 k j = (r : EReal)) (hb2 : ∀ j, ∃ r : ℝ, b2 j = (r : EReal))
    (hz : ∀ n j, ∃ r : ℝ, z n j = (r : EReal)) (n : Fin 10000) (j : Fin 16) :
    ∃ r : ℝ, logits adj b1 W2 b2 z n j = (r : EReal) := by
  unfold logits
  exact real_add (real_sum_mul (hadj n) (fun k => real_proj2 adj b1 W2 z hadj hb1 hW2 hz k j)) (hb2 j)

end Layers

/-! ## The log-softmax of a row of real numbers -/

section LogSoftmax

variable (o : Fin 10000 → Fin 16 → EReal)

/-- The maximum of a row of sixteen real numbers is a real number. -/
theorem real_rowMax (ho : ∀ n j, ∃ r : ℝ, o n j = (r : EReal)) (n : Fin 10000) :
    ∃ r : ℝ, rowMax o n = (r : EReal) := by
  unfold rowMax
  rcases real_fold_max (fun j => o n j) (ho n) Finset.univ with ⟨h, -⟩ | h
  · exact absurd h Finset.univ_nonempty.ne_empty
  · exact h

/-- The log of the sum of the exponentials of a row of real numbers, each shifted by the row's maximum, is a real
    number: each exponential is a positive real number, so is their sum, and the log of a positive real number is
    a real number. -/
theorem real_logSumExp (ho : ∀ n j, ∃ r : ℝ, o n j = (r : EReal)) (n : Fin 10000) :
    ∃ r : ℝ, logSumExp o n = (r : EReal) := by
  obtain ⟨M, hM⟩ := real_rowMax o ho n
  choose p hp using ho n
  unfold logSumExp
  simp only [hM, hp, ← EReal.coe_sub, Ideal.exp_coe, coe_sum]
  have hpos : ¬ (∑ j : Fin 16, Real.exp (p j - M)) ≤ 0 :=
    not_le.mpr (Finset.sum_pos (fun j _ => Real.exp_pos _) Finset.univ_nonempty)
  rw [Ideal.log_coe, if_neg hpos]
  exact ⟨_, rfl⟩

/-- On a row of real numbers o - (L + M) = (o - M) - L. -/
theorem logSoftmaxUnshifted_eq_shifted (ho : ∀ n j, ∃ r : ℝ, o n j = (r : EReal)) (n : Fin 10000) (j : Fin 16) :
    logSoftmaxUnshifted o n j = logSoftmaxShifted o n j := by
  obtain ⟨M, hM⟩ := real_rowMax o ho n
  obtain ⟨L, hL⟩ := real_logSumExp o ho n
  obtain ⟨a, ha⟩ := ho n j
  unfold logSoftmaxUnshifted logSoftmaxShifted
  rw [hM, hL, ha]
  simp only [← EReal.coe_sub, ← EReal.coe_add]
  congr 1
  ring

end LogSoftmax

/-! ## The two results agree -/

/-- What the kernel computes is what the reference computes, entry by entry, on real inputs. -/
theorem outSplit_eq_outConcat
    (x : Fin 10000 → Fin 128 → EReal) (adj : Fin 10000 → Fin 10000 → EReal) (emb : Fin 10000 → Fin 64 → EReal)
    (fcW : Fin 64 → Fin 64 → EReal) (fcb : Fin 64 → EReal) (W1 : Fin 192 → Fin 32 → EReal) (b1 : Fin 32 → EReal)
    (W2 : Fin 32 → Fin 16 → EReal) (b2 : Fin 16 → EReal)
    (hx : ∀ n k, ∃ r : ℝ, x n k = (r : EReal)) (hadj : ∀ n k, ∃ r : ℝ, adj n k = (r : EReal))
    (hemb : ∀ n e, ∃ r : ℝ, emb n e = (r : EReal)) (hfcW : ∀ e f, ∃ r : ℝ, fcW e f = (r : EReal))
    (hfcb : ∀ f, ∃ r : ℝ, fcb f = (r : EReal)) (hW1 : ∀ k j, ∃ r : ℝ, W1 k j = (r : EReal))
    (hb1 : ∀ j, ∃ r : ℝ, b1 j = (r : EReal)) (hW2 : ∀ k j, ∃ r : ℝ, W2 k j = (r : EReal))
    (hb2 : ∀ j, ∃ r : ℝ, b2 j = (r : EReal)) (n : Fin 10000) (j : Fin 16) :
    outSplit x adj emb fcW fcb W1 b1 W2 b2 n j = outConcat x adj emb fcW fcb W1 b1 W2 b2 n j := by
  have hp : projSplit x emb fcW fcb W1 = projConcat x emb fcW fcb W1 :=
    funext fun n => funext fun j => projSplit_eq_projConcat x emb fcW fcb W1 hx hemb hfcW hfcb hW1 n j
  unfold outSplit outConcat
  rw [← hp]
  exact logSoftmaxUnshifted_eq_shifted _
    (real_logits adj b1 W2 b2 _ hadj hb1 hW2 hb2 (real_projSplit x emb fcW fcb W1 hx hemb hfcW hfcb hW1)) n j

/-- The kernel's result array is the reference's when every entry of the nine argument arrays is a real number. -/
theorem splitArray_eq_concatArray
    (x : (⟨2, ![10000, 128]⟩ : Shape).Idx → EReal) (adj : (⟨2, ![10000, 10000]⟩ : Shape).Idx → EReal)
    (emb : (⟨2, ![10000, 64]⟩ : Shape).Idx → EReal) (fcW : (⟨2, ![64, 64]⟩ : Shape).Idx → EReal)
    (fcb : (⟨1, ![64]⟩ : Shape).Idx → EReal) (W1 : (⟨2, ![192, 32]⟩ : Shape).Idx → EReal)
    (b1 : (⟨1, ![32]⟩ : Shape).Idx → EReal) (W2 : (⟨2, ![32, 16]⟩ : Shape).Idx → EReal)
    (b2 : (⟨1, ![16]⟩ : Shape).Idx → EReal)
    (hx : ∀ i, ∃ r : ℝ, x i = (r : EReal)) (hadj : ∀ i, ∃ r : ℝ, adj i = (r : EReal))
    (hemb : ∀ i, ∃ r : ℝ, emb i = (r : EReal)) (hfcW : ∀ i, ∃ r : ℝ, fcW i = (r : EReal))
    (hfcb : ∀ i, ∃ r : ℝ, fcb i = (r : EReal)) (hW1 : ∀ i, ∃ r : ℝ, W1 i = (r : EReal))
    (hb1 : ∀ i, ∃ r : ℝ, b1 i = (r : EReal)) (hW2 : ∀ i, ∃ r : ℝ, W2 i = (r : EReal))
    (hb2 : ∀ i, ∃ r : ℝ, b2 i = (r : EReal)) :
    splitArray x adj emb fcW fcb W1 b1 W2 b2 = concatArray x adj emb fcW fcb W1 b1 W2 b2 := by
  funext i
  exact outSplit_eq_outConcat (mat x) (mat adj) (mat emb) (mat fcW) (vec fcb) (mat W1) (vec b1) (mat W2) (vec b2)
    (fun n k => hx (ix2 n k)) (fun n k => hadj (ix2 n k)) (fun n e => hemb (ix2 n e)) (fun e f => hfcW (ix2 e f))
    (fun f => hfcb (ix1 f)) (fun k j => hW1 (ix2 k j)) (fun j => hb1 (ix1 j)) (fun k j => hW2 (ix2 k j))
    (fun j => hb2 (ix1 j)) (i 0) (i 1)

end Cert.GraphConv

end
-- ==== Proof.LibFiniteEntry.lean ====
/-
  One "every entry is finite" test of a precondition, read back at an entry.

  A precondition "all float inputs are finite" is, per input, an and-reduction over all axes of the entrywise
  comparison |v| < +∞ (the bound the word 0x7F800000), started from true. When such a reduction is true every
  entry's comparison is true, and an extended real v with max(v, -v) < +∞ is neither +∞ nor -∞: it is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.FiniteEntry

open Idealize.ShloMosaic Idealize.ShloMosaic.ValueIdx

/-- The comparison bound's word denotes +∞. -/
theorem inf_eq : Ideal.ofBits .f32 0x7F800000#32 = ⊤ := by
  simp [Ideal.ofBits, Ideal.ieee]

/-- |v| < +∞ came out true: v is a real number. -/
theorem real_of_abs_lt_inf (v : EReal)
    (h : FloatOps.cmpf (F := Ideal) (φ := .f32) .olt (FloatOps.hostAbsf v) (Ideal.ofBits .f32 0x7F800000#32) = 1#1) :
    ∃ r : ℝ, v = (r : EReal) := by
  have hlt : max v (-v) < ⊤ := by
    by_contra hn
    have h0 : FloatOps.cmpf (F := Ideal) (φ := .f32) .olt (FloatOps.hostAbsf v) (Ideal.ofBits .f32 0x7F800000#32) = 0#1 := by
      show BitVec.ofBool (decide (max v (-v) < Ideal.ofBits .f32 0x7F800000#32)) = 0#1
      rw [inf_eq, decide_eq_false hn]
      rfl
    rw [h0] at h
    exact absurd h (by decide)
  have h1 : v ≠ ⊤ := fun e => by rw [e] at hlt; simp at hlt
  have h2 : v ≠ ⊥ := fun e => by rw [e] at hlt; simp at hlt
  exact ⟨v.toReal, (EReal.coe_toReal h1 h2).symm⟩

/-- A rank-0 array has one index. -/
instance : Subsingleton (⟨0, ![]⟩ : Shape).Idx := ⟨fun a b => funext fun d => d.elim0⟩

/-- The whole test read back: if the and-reduction over all axes of "|a| < +∞" (the bound broadcast from a scalar
    constant) is true, every entry of a is a real number. -/
theorem all_real {s : Shape} {axes : List (Fin s.rank)} (a : FVec Ideal s .f32)
    (hb : (⟨0, ![]⟩ : Shape).BroadcastsInDim s ![]) (hr : s.ReducesTo axes ⟨0, ![]⟩) (hn : 0 < (⟨0, ![]⟩ : Shape).numel)
    (init : IVec ⟨0, ![]⟩ 1)
    (h : Host.reduce IntOp.andi
        (cmpf .olt (Host.absf a) (broadcastInDim s ![] hb (constant (F := Ideal) ⟨0, ![]⟩ .f32 0x7F800000#32))) init hr hn ix0 = 1#1)
    (i : s.Idx) : ∃ r : ℝ, a i = (r : EReal) := by
  have e := Host.reduce_andi_all _ _ _ _ ix0 h i
  rw [cmpf_apply, broadcastInDim_scalar_apply] at e
  exact real_of_abs_lt_inf (a i) e

end Cert.Lib.FiniteEntry

end
-- ==== Proof.FiniteInputs.lean ====
/-
  The finite-inputs precondition read back: when the printed conjunction of the nine tests
  "every entry of the array has absolute value below +∞" comes out true, every entry of each of the nine
  argument arrays is a real number.

  The precondition is a left-nested conjunction of nine rank-0 truth values, one per argument array; each is the
  and-reduction over all axes of the entrywise comparison |a| < +∞. A true conjunction makes each conjunct true,
  and a true and-reduction makes every entry's comparison true, which excludes +∞ and -∞.
-/
import proofs.«147795_g18923625906521_cont_8to1_898_2_alg».proof.Pre_finite_inputs
import proofs.«147795_g18923625906521_cont_8to1_898_2_alg».proof.Proof.Gen.Pre_finite_inputs
import proofs.«147795_g18923625906521_cont_8to1_898_2_alg».proof.Proof.LibFiniteEntry

noncomputable section

namespace Cert.FiniteInputs

open Idealize.ShloMosaic Idealize.ShloMosaic.ValueIdx Cert.Pre_finite_inputs

/-- The entrywise conjunction of two arrays of truth values, read at an index. -/
theorem andi_at {s : Shape} {w : Nat} (p q : IVec s w) (i : s.Idx) : andi p q i = IntOp.andi (p i) (q i) := rfl

/-- Under the finite-inputs precondition every entry of every argument array is a real number. -/
theorem real_entries (a0 : FVec Ideal S10000x128 .f32) (a1 : FVec Ideal S10000x10000 .f32) (a2 : FVec Ideal S10000x64 .f32)
    (a3 : FVec Ideal S64x64 .f32) (a4 : FVec Ideal S64 .f32) (a5 : FVec Ideal S192x32 .f32) (a6 : FVec Ideal S32 .f32)
    (a7 : FVec Ideal S32x16 .f32) (a8 : FVec Ideal S16 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧ (∀ i, ∃ r : ℝ, a8 i = (r : EReal)) := by
  have h0 := congrFun h ix0
  dsimp only [Cert.Pre_finite_inputs.fn, Cert.Pre_finite_inputs.fn_part1, Cert.Pre_finite_inputs.fn_part2] at h0
  simp only [andi_at, IntOp.andi_eq_one] at h0
  obtain ⟨⟨⟨⟨⟨⟨⟨⟨t0, t1⟩, t2⟩, t3⟩, t4⟩, t5⟩, t6⟩, t7⟩, t8⟩ := h0
  exact ⟨Cert.Lib.FiniteEntry.all_real a0 _ _ _ _ t0, Cert.Lib.FiniteEntry.all_real a1 _ _ _ _ t1,
    Cert.Lib.FiniteEntry.all_real a2 _ _ _ _ t2, Cert.Lib.FiniteEntry.all_real a3 _ _ _ _ t3,
    Cert.Lib.FiniteEntry.all_real a4 _ _ _ _ t4, Cert.Lib.FiniteEntry.all_real a5 _ _ _ _ t5,
    Cert.Lib.FiniteEntry.all_real a6 _ _ _ _ t6, Cert.Lib.FiniteEntry.all_real a7 _ _ _ _ t7,
    Cert.Lib.FiniteEntry.all_real a8 _ _ _ _ t8⟩

end Cert.FiniteInputs

end
-- ==== Proof.RefRun.lean ====
/-
  The reference program's run. Its @main is a straight line of 57 host operations once its three outlined
  functions are put back at their calls: the row numbers 0 .. 9999, the lookup of every row of the embedding
  table at those numbers (23 operations, the select of the inner where among them), the dense layer on the
  looked-up rows, the concatenation with the node features, the two graph-convolution layers (18 operations
  with the dense layer), and the log-softmax along each row (15 operations). Every weakly fair execution
  terminates with each buffer at the fold of these operations over the launch contents.
-/
import proofs.«147795_g18923625906521_cont_8to1_898_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 57 operations in order, the calls unfolded: the row numbers; the lookup's 23 into its call's buffers
    (the inner where's select into its own); the dense layer, the concatenation and the two layers; the
    log-softmax's 15 into its call's buffers. -/
abbrev ops : List (HloOp τ sig (Elt F)) :=
  [ nullary main_v0 (iotaInDim S10000 32 0),
    TRef.nullary main_call0.c (constantI S_ 32 0#32),
    TRef.unary main_call0.c main_call0.v0 (broadcastInDim S10000 ![] bcast_S_S10000),
    TRef.binary (.of main_v0 : TRef sig ⟨S10000, .i32⟩) main_call0.v0 main_call0.v1 (cmpi .slt),
    TRef.nullary main_call0.c_0 (constantI S_ 32 10000#32),
    TRef.unary main_call0.c_0 main_call0.v2 (broadcastInDim S10000 ![] bcast_S_S10000),
    TRef.binary (.of main_v0 : TRef sig ⟨S10000, .i32⟩) main_call0.v2 main_call0.v3 addi,
    TRef.ternary main_call0.v1 main_call0.v3 (.of main_v0 : TRef sig ⟨S10000, .i32⟩) main_call0.call0.v0 select,
    TRef.unary main_call0.call0.v0 main_call0.v5 (broadcastInDim S10000x1 ![0] bcast_S10000_S10000x1_0),
    TRef.nullary main_call0.c_1 (constantI S1 32 9999#32),
    TRef.nullary main_call0.c_2 (constantI S_ 32 0#32),
    TRef.unary main_call0.c_2 main_call0.v6 (broadcastInDim S10000x1 ![] bcast_S_S10000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S10000x1 ![0, 1] bcast_S1x1_S10000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S10000x1_S10000_d1 h_S_),
    TRef.binary (.of main_arg2 : TRef sig ⟨S10000x64, .f32⟩) main_call0.v5 main_call0.v13 (fun x i => Host.gather gather_S10000x64_S10000x1_S10000x64_1_0_n_n_0_1_164 x i),
    TRef.unary main_call0.v12 main_call0.v14 (broadcastInDim S10000x64 ![0] bcast_S10000_S10000x64_0),
    TRef.nullary main_call0.cst (constant S_ .f32 0x7FC00000#32),
    TRef.unary main_call0.cst main_call0.v15 (broadcastInDim S10000x64 ![] bcast_S_S10000x64),
    TRef.ternary main_call0.v14 main_call0.v13 main_call0.v15 main_call0.v16 select,
    binary main_v1 main_arg3 main_v2 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    unary main_arg4 main_v3 (broadcastInDim S1x64 ![1] bcast_S64_S1x64_1 : (⟨S64, .f32⟩ : BufTy).Contents (Elt F) → (⟨S1x64, .f32⟩ : BufTy).Contents (Elt F)),
    unary main_v3 main_v4 (broadcastInDim S10000x64 ![0, 1] bcast_S1x64_S10000x64_0_1 : (⟨S1x64, .f32⟩ : BufTy).Contents (Elt F) → (⟨S10000x64, .f32⟩ : BufTy).Contents (Elt F)),
    binary main_v2 main_v4 main_v5 (addf : (⟨S10000x64, .f32⟩ : BufTy).Contents (Elt F) → (⟨S10000x64, .f32⟩ : BufTy).Contents (Elt F) → (⟨S10000x64, .f32⟩ : BufTy).Contents (Elt F)),
    binary main_arg0 main_v5 main_v6 ((fun a b => concatenate S10000x192 1 [⟨S10000x128, a⟩, ⟨S10000x64, b⟩] concatenates_S10000x128_S10000x64_S10000x192_d1) : (⟨S10000x128, .f32⟩ : BufTy).Contents (Elt F) → (⟨S10000x64, .f32⟩ : BufTy).Contents (Elt F) → (⟨S10000x192, .f32⟩ : BufTy).Contents (Elt F)),
    binary main_v6 main_arg5 main_v7 ((fun l r => Host.dotGeneral dot_S10000x192_S192x32_S10000x32_1_0_0_1_n_n none l r) : (⟨S10000x192, .f32⟩ : BufTy).Contents (Elt F) → (⟨S192x32, .f32⟩ : BufTy).Contents (Elt F) → (⟨S10000x32, .f32⟩ : BufTy).Contents (Elt F)),
    binary main_arg1 main_v7 main_v8 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)),
    unary main_arg6 main_v9 (broadcastInDim S1x32 ![1] bcast_S32_S1x32_1 : (⟨S32, .f32⟩ : BufTy).Contents (Elt F) → (⟨S1x32, .f32⟩ : BufTy).Contents (Elt F)),
    unary main_v9 main_v10 (broadcastInDim S10000x32 ![0, 1] bcast_S1x32_S10000x32_0_1 : (⟨S1x32, .f32⟩ : BufTy).Contents (Elt F) → (⟨S10000x32, .f32⟩ : BufTy).Contents (Elt F)),
    binary main_v8 main_v10 main_v11 (addf : (⟨S10000x32, .f32⟩ : BufTy).Contents (Elt F) → (⟨S10000x32, .f32⟩ : BufTy).Contents (Elt F) → (⟨S10000x32, .f32⟩ : BufTy).Contents (Elt F)),
    nullary main_cst (constant S_ .f32 0x00000000#32),
    unary main_cst main_v12 (broadcastInDim S10000x32 ![] bcast_S_S10000x32 : (⟨S_, .f32⟩ : BufTy).Contents (Elt F) → (⟨S10000x32, .f32⟩ : BufTy).Contents (Elt F)),
    binary main_v11 main_v12 main_v13 (maximumf : (⟨S10000x32, .f32⟩ : BufTy).Contents (Elt F) → (⟨S10000x32, .f32⟩ : BufTy).Contents (Elt F) → (⟨S10000x32, .f32⟩ : BufTy).Contents (Elt F)),
    binary main_v13 main_arg7 main_v14 ((fun l r => Host.dotGeneral dot_S10000x32_S32x16_S10000x16_1_0_0_1_n_n none l r) : (⟨S10000x32, .f32⟩ : BufTy).Contents (Elt F) → (⟨S32x16, .f32⟩ : BufTy).Contents (Elt F) → (⟨S10000x16, .f32⟩ : BufTy).Contents (Elt F)),
    binary main_arg1 main_v14 main_v15 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    unary main_arg8 main_v16 (broadcastInDim S1x16 ![1] bcast_S16_S1x16_1 : (⟨S16, .f32⟩ : BufTy).Contents (Elt F) → (⟨S1x16, .f32⟩ : BufTy).Contents (Elt F)),
    unary main_v16 main_v17 (broadcastInDim S10000x16 ![0, 1] bcast_S1x16_S10000x16_0_1 : (⟨S1x16, .f32⟩ : BufTy).Contents (Elt F) → (⟨S10000x16, .f32⟩ : BufTy).Contents (Elt F)),
    binary main_v15 main_v17 main_v18 (addf : (⟨S10000x16, .f32⟩ : BufTy).Contents (Elt F) → (⟨S10000x16, .f32⟩ : BufTy).Contents (Elt F) → (⟨S10000x16, .f32⟩ : BufTy).Contents (Elt F)),
    TRef.nullary main_call1.cst (constant S_ .f32 0xFF800000#32),
    TRef.binary (.of main_v18 : TRef sig ⟨S10000x16, .f32⟩) main_call1.cst main_call1.v0 (fun x v => Host.reduce FloatOps.maximumf x v reducesTo_S10000x16_S10000_d1 h_S_),
    TRef.nullary main_call1.cst_0 (constant S_ .f32 0xFF800000#32),
    TRef.unary main_call1.cst_0 main_call1.v1 (broadcastInDim S10000 ![] bcast_S_S10000),
    TRef.binary main_call1.v1 main_call1.v0 main_call1.v2 maximumf,
    TRef.unary main_call1.v2 main_call1.v3 (broadcastInDim S10000x1 ![0] bcast_S10000_S10000x1_0),
    TRef.unary main_call1.v3 main_call1.v4 (broadcastInDim S10000x16 ![0, 1] bcast_S10000x1_S10000x16_0_1),
    TRef.binary (.of main_v18 : TRef sig ⟨S10000x16, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S10000x16_S10000_d1 h_S_),
    TRef.unary main_call1.v7 main_call1.v8 (broadcastInDim S10000x1 ![0] bcast_S10000_S10000x1_0),
    TRef.unary main_call1.v8 main_call1.v9 Host.log,
    TRef.unary main_call1.v9 main_call1.v10 (broadcastInDim S10000x16 ![0, 1] bcast_S10000x1_S10000x16_0_1),
    TRef.binary main_call1.v5 main_call1.v10 main_call1.v11 subf ]

-- fifty-seven binds re-associated: the rewrite under the chain recurses once per statement
set_option maxRecDepth 4096 in
/-- @main is that straight line: the functions' definitions unfolded at their calls, both sides are one chain of
    steps once sequencing is reassociated. -/
theorem main_eq (c : Dev nD) : main (F := F) c = seq ops := by
  simp only [main, fn_take.body, fn_where.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., unary_bufs_sub .., unary_bufs_sub .., binary_bufs_sub .., binary_bufs_sub .., binary_bufs_sub ..,
    binary_bufs_sub .., unary_bufs_sub .., unary_bufs_sub .., binary_bufs_sub .., nullary_bufs_sub .., unary_bufs_sub ..,
    binary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

/-- For any float values, from any memory with zero counters: every weakly fair execution of @main terminates,
    and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/-
  The reference program's result as one pure term of its nine argument arrays, in stages: the lookup of every
  row of the embedding table at the row numbers 0 .. 9999, the dense layer on the looked-up rows, the
  concatenation with the node features, the two graph-convolution layers, and the log-softmax along each row.
  Each stage is the composition of the host operations the program runs for it, in the program's order.
-/
import proofs.«147795_g18923625906521_cont_8to1_898_2_alg».proof.Proof.Gen.ReferenceIdeal

noncomputable section

namespace Cert.ReferenceIdeal.RefStages

open Cert.ReferenceIdeal Cert.ReferenceIdeal.Gen Idealize.ShloMosaic

variable {F : FTy → Type} [FloatOps F]

/-- The row numbers 0 .. 9999 as 32-bit words. -/
def rowIds : IVec S10000 32 := iotaInDim S10000 32 0

/-- The index column the lookup gathers at: a negative row number is moved up by 10000, any other kept, and the
    result is laid out as a 10000 by 1 column. -/
def lookupIdx : IVec S10000x1 32 :=
  broadcastInDim S10000x1 ![0] bcast_S10000_S10000x1_0
    (select (cmpi .slt rowIds (broadcastInDim S10000 ![] bcast_S_S10000 (constantI S_ 32 0#32)))
      (addi rowIds (broadcastInDim S10000 ![] bcast_S_S10000 (constantI S_ 32 10000#32)))
      rowIds)

/-- The per-row test that the index lies in 0 .. 9999: both comparisons, and-ed, and reduced along the
    length-1 axis. -/
def inBounds : IVec S10000 1 :=
  Host.reduce IntOp.andi
    (andi (cmpi .sge lookupIdx (broadcastInDim S10000x1 ![] bcast_S_S10000x1 (constantI S_ 32 0#32)))
      (cmpi .sle lookupIdx
        (broadcastInDim S10000x1 ![0, 1] bcast_S1x1_S10000x1_0_1
          (broadcastInDim S1x1 ![1] bcast_S1_S1x1_1 (constantI S1 32 9999#32)))))
    (constantI S_ 1 1#1) reducesTo_S10000x1_S10000_d1 h_S_

/-- The lookup: the gathered rows where the index is in bounds, a fill word elsewhere. -/
def lookup (emb : FVec F S10000x64 .f32) : FVec F S10000x64 .f32 :=
  select (broadcastInDim S10000x64 ![0] bcast_S10000_S10000x64_0 inBounds)
    (Host.gather gather_S10000x64_S10000x1_S10000x64_1_0_n_n_0_1_164 emb lookupIdx)
    (broadcastInDim S10000x64 ![] bcast_S_S10000x64 (constant S_ .f32 0x7FC00000#32))

/-- The dense layer on the looked-up rows: their product with fcW plus the bias fcb along each row. -/
def dense (emb : FVec F S10000x64 .f32) (fcW : FVec F S64x64 .f32) (fcb : FVec F S64 .f32) : FVec F S10000x64 .f32 :=
  addf (Host.dotGeneral dot_S10000x64_S64x64_S10000x64_1_0_0_1_n_n none (lookup emb) fcW)
    (broadcastInDim S10000x64 ![0, 1] bcast_S1x64_S10000x64_0_1 (broadcastInDim S1x64 ![1] bcast_S64_S1x64_1 fcb))

/-- The node features and the dense layer's rows side by side. -/
def features (x : FVec F S10000x128 .f32) (emb : FVec F S10000x64 .f32) (fcW : FVec F S64x64 .f32)
    (fcb : FVec F S64 .f32) : FVec F S10000x192 .f32 :=
  concatenate S10000x192 1 [⟨S10000x128, x⟩, ⟨S10000x64, dense emb fcW fcb⟩]
    concatenates_S10000x128_S10000x64_S10000x192_d1

/-- The first projection: the concatenated rows times W1. -/
def proj1 (x : FVec F S10000x128 .f32) (emb : FVec F S10000x64 .f32) (fcW : FVec F S64x64 .f32)
    (fcb : FVec F S64 .f32) (W1 : FVec F S192x32 .f32) : FVec F S10000x32 .f32 :=
  Host.dotGeneral dot_S10000x192_S192x32_S10000x32_1_0_0_1_n_n none (features x emb fcW fcb) W1

/-- The hidden layer from a first projection z: the maximum of adj z + b1 and zero. -/
def hidden (adj : FVec F S10000x10000 .f32) (b1 : FVec F S32 .f32) (z : FVec F S10000x32 .f32) : FVec F S10000x32 .f32 :=
  maximumf
    (addf (Host.dotGeneral dot_S10000x10000_S10000x32_S10000x32_1_0_0_1_n_n none adj z)
      (broadcastInDim S10000x32 ![0, 1] bcast_S1x32_S10000x32_0_1 (broadcastInDim S1x32 ![1] bcast_S32_S1x32_1 b1)))
    (broadcastInDim S10000x32 ![] bcast_S_S10000x32 (constant S_ .f32 0x00000000#32))

/-- The logits from a hidden layer h: adj (h W2) + b2. -/
def logits (adj : FVec F S10000x10000 .f32) (W2 : FVec F S32x16 .f32) (b2 : FVec F S16 .f32)
    (h : FVec F S10000x32 .f32) : FVec F S10000x16 .f32 :=
  addf
    (Host.dotGeneral dot_S10000x10000_S10000x16_S10000x16_1_0_0_1_n_n none adj
      (Host.dotGeneral dot_S10000x32_S32x16_S10000x16_1_0_0_1_n_n none h W2))
    (broadcastInDim S10000x16 ![0, 1] bcast_S1x16_S10000x16_0_1 (broadcastInDim S1x16 ![1] bcast_S16_S1x16_1 b2))

/-- The row maxima of o: the reduce from the least word, then the maximum with the least word again. -/
def rowMaxima (o : FVec F S10000x16 .f32) : FVec F S10000 .f32 :=
  maximumf (broadcastInDim S10000 ![] bcast_S_S10000 (constant S_ .f32 0xFF800000#32))
    (Host.reduce FloatOps.maximumf o (constant S_ .f32 0xFF800000#32) reducesTo_S10000x16_S10000_d1 h_S_)

/-- o with each row's maximum subtracted. -/
def shifted (o : FVec F S10000x16 .f32) : FVec F S10000x16 .f32 :=
  subf o
    (broadcastInDim S10000x16 ![0, 1] bcast_S10000x1_S10000x16_0_1
      (broadcastInDim S10000x1 ![0] bcast_S10000_S10000x1_0 (rowMaxima o)))

/-- The log-softmax along each row: the shifted entries minus the log of the row's sum of their exponentials. -/
def logSoftmax (o : FVec F S10000x16 .f32) : FVec F S10000x16 .f32 :=
  subf (shifted o)
    (broadcastInDim S10000x16 ![0, 1] bcast_S10000x1_S10000x16_0_1
      (Host.log
        (broadcastInDim S10000x1 ![0] bcast_S10000_S10000x1_0
          (Host.reduceAdd (Host.exp (shifted o)) (constant S_ .f32 0x00000000#32) reducesTo_S10000x16_S10000_d1 h_S_))))

/-- The reference's result. -/
def out (x : FVec F S10000x128 .f32) (adj : FVec F S10000x10000 .f32) (emb : FVec F S10000x64 .f32)
    (fcW : FVec F S64x64 .f32) (fcb : FVec F S64 .f32) (W1 : FVec F S192x32 .f32) (b1 : FVec F S32 .f32)
    (W2 : FVec F S32x16 .f32) (b2 : FVec F S16 .f32) : FVec F S10000x16 .f32 :=
  logSoftmax (logits adj W2 b2 (hidden adj b1 (proj1 x emb fcW fcb W1)))

end Cert.ReferenceIdeal.RefStages

end
-- ==== Proof.RefFold.lean ====
/-
  The reference program's run read back at its result: the fold of the 57 operations at the result buffer is the
  staged term of the nine argument arrays, and at each argument buffer it is what was there. So every weakly fair
  execution terminates with the result array at that term of the launch contents and the arguments unchanged.
-/
import proofs.«147795_g18923625906521_cont_8to1_898_2_alg».proof.Proof.RefRun
import proofs.«147795_g18923625906521_cont_8to1_898_2_alg».proof.Proof.RefStages

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather Host.exp Host.log concatenate broadcastInDim in
set_option maxRecDepth 16384 in
set_option maxHeartbeats 1600000 in
/-- The fold at the result buffer is the staged term, by computation: each operation's result decides whether the
    buffer read is the one it writes, and the typed references' transports are the identity at literal references.
    The reductions, the gather, the layout operations and the transcendental maps are kept folded meanwhile: the
    equation never looks inside them. -/
theorem out_eq (V : Valuation τ sig (Elt F)) :
    after (RefRun.ops (F := F)) V (main_v19 : DevRef τ sig)
      = RefStages.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  simp only [after_cons, after_nil]
  rfl

theorem arg0_eq (V : Valuation τ sig (Elt F)) :
    after (RefRun.ops (F := F)) V (main_arg0 : DevRef τ sig) = V (main_arg0 : DevRef τ sig) := by
  simp only [after_cons, after_nil]
  rfl

theorem arg1_eq (V : Valuation τ sig (Elt F)) :
    after (RefRun.ops (F := F)) V (main_arg1 : DevRef τ sig) = V (main_arg1 : DevRef τ sig) := by
  simp only [after_cons, after_nil]
  rfl

theorem arg2_eq (V : Valuation τ sig (Elt F)) :
    after (RefRun.ops (F := F)) V (main_arg2 : DevRef τ sig) = V (main_arg2 : DevRef τ sig) := by
  simp only [after_cons, after_nil]
  rfl

theorem arg3_eq (V : Valuation τ sig (Elt F)) :
    after (RefRun.ops (F := F)) V (main_arg3 : DevRef τ sig) = V (main_arg3 : DevRef τ sig) := by
  simp only [after_cons, after_nil]
  rfl

theorem arg4_eq (V : Valuation τ sig (Elt F)) :
    after (RefRun.ops (F := F)) V (main_arg4 : DevRef τ sig) = V (main_arg4 : DevRef τ sig) := by
  simp only [after_cons, after_nil]
  rfl

theorem arg5_eq (V : Valuation τ sig (Elt F)) :
    after (RefRun.ops (F := F)) V (main_arg5 : DevRef τ sig) = V (main_arg5 : DevRef τ sig) := by
  simp only [after_cons, after_nil]
  rfl

theorem arg6_eq (V : Valuation τ sig (Elt F)) :
    after (RefRun.ops (F := F)) V (main_arg6 : DevRef τ sig) = V (main_arg6 : DevRef τ sig) := by
  simp only [after_cons, after_nil]
  rfl

theorem arg7_eq (V : Valuation τ sig (Elt F)) :
    after (RefRun.ops (F := F)) V (main_arg7 : DevRef τ sig) = V (main_arg7 : DevRef τ sig) := by
  simp only [after_cons, after_nil]
  rfl

theorem arg8_eq (V : Valuation τ sig (Elt F)) :
    after (RefRun.ops (F := F)) V (main_arg8 : DevRef τ sig) = V (main_arg8 : DevRef τ sig) := by
  simp only [after_cons, after_nil]
  rfl

/-- From any memory with zero counters, for any float values: every weakly fair execution of the reference
    terminates with its result array at the staged term of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = RefStages.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v19).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (RefRun.run_main m ρ)

end Cert.ReferenceIdeal.RefFold

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.LibSegmentSum.lean ====
/-
  Row gather and accumulating row scatter along the leading axis, read at an index, and the one algebraic law a
  degree-normalised neighbourhood sum rests on: a nonnegative real factor passes through a finite sum of extended reals.
  Nothing here mentions a particular program; the sizes are parameters.
-/
import Idealize.ShloMosaic.PureOps.Ideal
import Idealize.ShloMosaic.PureOps.Ideal.Laws
import Idealize.ShloMosaic.Lib.ValueIdx

noncomputable section

open scoped BigOperators

namespace Idealize.ShloMosaic.SegmentSum

open Idealize.ShloMosaic
open Idealize.ShloMosaic.ValueIdx

/-! ## A nonnegative real factor and finite sums of extended reals

The extended reals are not a semiring: `(⊤ + ⊥) * c` and `⊤ * c + ⊥ * c` differ in general. A factor that is a
nonnegative REAL is harmless: it sends each infinity to itself or to zero, and both sides agree. -/

/-- Multiplication on the right by a nonnegative real distributes over every finite sum of extended reals. -/
theorem sum_mul_coe_nonneg {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- In a scatter-add into zeros, a factor that equals one nonnegative real `r` on every update landing at `i` can be
    taken out of the sum at `i`: the scattered products at `i` are `r` times the scattered first factors at `i`. -/
theorem hostScatterAdd_zero_mul_fibre {s si su : Shape} (d : ScatterDims s si su) {w : Nat} (idx : IVec si w)
    (U B : su.Idx → EReal) (i : s.Idx) (r : ℝ) (hr : 0 ≤ r)
    (hB : ∀ j, d.resultIdx? j idx = some i → B j = (r : EReal)) :
    Ideal.hostScatterAdd d (fun _ => 0) idx (fun j => U j * B j) i
      = Ideal.hostScatterAdd d (fun _ => 0) idx U i * (r : EReal) := by
  unfold Ideal.hostScatterAdd
  rw [zero_add, zero_add, sum_mul_coe_nonneg _ _ r hr]
  refine Finset.sum_congr rfl fun j hj => ?_
  show U j * B j = U j * (r : EReal)
  rw [hB j (Finset.mem_filter.mp hj).2]

/-! ## The accumulating row scatter along the leading axis

What a segment sum of rows lowers to: update row `e` of an `[E, D]` array is added into operand row `idx[e, 0]` of an
`[N, D]` array, column by column. Axis 0 of the operand is an inserted window axis (the update has no coordinate on
it), axis 1 is the window; the start index is read signed and is not clamped. -/

/-- The dimension numbers of that scatter for an operand `[N, D]`, scatter indices `[E, 1]` and updates `[E, D]`;
    their conditions `wf` are decided on literal sizes. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update that lands at row `n` was addressed to row `n`: if update element `j` lands at operand index `i`, the
    scatter index of `j`'s row, read as a signed integer, is `i`'s row number. (On axis 0 the landing coordinate is
    the start index plus a window coordinate that is zero, the axis being inserted.) -/
theorem rowScatter_lands {N E D w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatterDims N E D wf).resultIdx? j idx = some i) :
    (idx (ix2 (j 0) 0)).toInt = ((i 0).val : ℤ) := by
  unfold ScatterDims.resultIdx? at h
  split at h
  · rename_i hin
    have hv : ((rowScatterDims N E D wf).start j idx 0 + (rowScatterDims N E D wf).window j 0).toNat = (i 0).val :=
      congrArg Fin.val (congrFun (Option.some.inj h) 0)
    have hpos := (hin 0).1
    have hwin : (rowScatterDims N E D wf).window j 0 = 0 := by
      unfold ScatterDims.window
      rw [dif_neg (by simp [ScatterDims.sKept, Shape.kept, List.mem_filter, List.mem_finRange])]
    have hstart : (rowScatterDims N E D wf).start j idx 0 = (idx (ix2 (j 0) 0)).toInt := by
      unfold ScatterDims.start
      rw [dif_pos (show (0 : Fin 2) ∈ (rowScatterDims N E D wf).scatterDimsToOperandDims from List.mem_singleton.mpr rfl)]
      have hsi : (rowScatterDims N E D wf).siIdx j ⟨List.idxOf (0 : Fin 2) (rowScatterDims N E D wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    rw [hwin, hstart] at hv hpos
    omega
  · cases h

/-! ## The clamped row a gather reads, and the row a landed update was addressed to -/

/-- The operand row a gather along axis 0 reads for start-index row `e`: the index `idx[e, 0]` read as a signed
    integer, a negative one taken to `0`, clamped to the last row `N − 1`. -/
def clampRow (N : Nat) (hN : 0 < N) {E w : Nat} (idx : IVec ⟨2, ![E, 1]⟩ w) (e : Fin E) : Fin N :=
  ⟨min (idx (ix2 e 0)).toInt.toNat (N - 1), by omega⟩

/-- If update element `j` lands at operand index `i` under the indices `idx`, then any index array `idx'` that reads
    the same signed integer at `j`'s row gathers exactly row `i 0` there: the integer is `i`'s row number, nonnegative
    and below `N`, so neither clamp moves it. -/
theorem clampRow_of_lands {N E D w : Nat} (hN : 0 < N)
    (wf : ScatterDims.WF ⟨2, ![N, D]⟩ ⟨2, ![E, 1]⟩ ⟨2, ![E, D]⟩ [1] [0] [0] 1)
    (idx idx' : IVec ⟨2, ![E, 1]⟩ w) (j : (⟨2, ![E, D]⟩ : Shape).Idx) (i : (⟨2, ![N, D]⟩ : Shape).Idx)
    (h : (rowScatterDims N E D wf).resultIdx? j idx = some i)
    (hsame : (idx' (ix2 (j 0) 0)).toInt = (idx (ix2 (j 0) 0)).toInt) :
    clampRow N hN idx' (j 0) = i 0 := by
  have hl := rowScatter_lands wf idx j i h
  have hi : (i 0).val < N := idx2_lt0 i
  refine Fin.ext ?_
  show min (idx' (ix2 (j 0) 0)).toInt.toNat (N - 1) = (i 0).val
  rw [hsame, hl]
  omega

/-! ## The row gather along the leading axis

What `x[idx]` of an `[N, D]` array at an index column `idx : [E, 1]` lowers to: result row `e` is operand row
`idx[e, 0]`, read signed and clamped into `[0, N − 1]`; axis 0 of the operand is collapsed (slice size 1), axis 1 is
the offset axis, taken whole. -/

section Gather
variable {α : Type}

/-- The dimension numbers of that gather for an operand `[N, D]`, start indices `[E, 1]` and result `[E, D]`; their
    conditions `wf` are decided on literal sizes. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather read at `(e, c)`: the operand at the clamped row of `e` and column `c`. (On axis 0 the operand
    coordinate is the clamped start index alone; on axis 1 it is the result's own column, the start being zero there.) -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (rowGatherDims N E D wf) x idx y = x (ix2 (clampRow N hN idx (y 0)) (y 1)) := by
  unfold Host.gather
  congr 1
  funext a
  refine Fin.ext ?_
  match a with
  | ⟨0, _⟩ =>
    show (rowGatherDims N E D wf).start y idx 0 + (rowGatherDims N E D wf).batchCoord y 0
      + (rowGatherDims N E D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx y ⟨List.idxOf (0 : Fin 2) (rowGatherDims N E D wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  | ⟨1, _⟩ =>
    show (rowGatherDims N E D wf).start y idx 1 + (rowGatherDims N E D wf).batchCoord y 1
      + (rowGatherDims N E D wf).offCoord y 1 = (y 1).val
    have hst : (rowGatherDims N E D wf).start y idx 1 = 0 := by
      unfold GatherDims.start
      rw [dif_neg (fun h => absurd (List.mem_singleton.mp h) (show ¬ (1 : Fin 2) = 0 by decide))]
    have hoff : (rowGatherDims N E D wf).offCoord y 1 = (y 1).val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hst, GatherDims.batchCoord_eq_zero _ _ _ List.not_mem_nil, hoff]
    omega

/-! ## The gather of a flat array at an index column

What `x[idx]` of an `[N]` array at `idx : [E, 1]` lowers to: result element `e` is `x` at `idx[e, 0]`, read signed and
clamped into `[0, N − 1]`; no offset axis. -/

/-- The dimension numbers of that gather for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the clamped row of `e`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecGatherDims N E wf) x idx y = x (ix1 (clampRow N hN idx (y 0))) := by
  unfold Host.gather
  congr 1
  funext a
  obtain rfl : a = 0 := Subsingleton.elim _ _
  refine Fin.ext ?_
  show (vecGatherDims N E wf).start y idx 0 + (vecGatherDims N E wf).batchCoord y 0
    + (vecGatherDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx y ⟨List.idxOf (0 : Fin 1) (vecGatherDims N E wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

end Gather

/-! ## The normalisation coefficient is a nonnegative real

Scattering ones into zeros counts, at each operand element, the updates that land there. The coefficient
`count > 0 ? count^(-1/2) : 0` is therefore a nonnegative real number, never an infinity. -/

/-- A finite sum of ones in the extended reals is the number of its terms. -/
theorem sum_one_eq_card {ι : Type*} (s : Finset ι) : ∑ _j ∈ s, (1 : EReal) = ((s.card : ℝ) : EReal) := by
  classical
  induction s using Finset.induction_on with
  | empty => simp
  | insert a s ha ih =>
    rw [Finset.sum_insert ha, Finset.card_insert_of_notMem ha, ih, Nat.cast_succ, EReal.coe_add, EReal.coe_one,
      add_comm]

/-- For a natural number `n` read as an extended real, `n > 0 ? n^(-1/2) : 0` is a nonnegative real: zero when
    `n = 0`, the inverse of the real square root otherwise. -/
theorem select_rsqrt_natCast_real (n : ℕ) :
    ∃ r : ℝ, 0 ≤ r ∧
      Scalar.select (Ideal.cmp .ogt ((n : ℝ) : EReal) 0) (Ideal.rsqrt ((n : ℝ) : EReal)) (0 : EReal) = (r : EReal) := by
  rcases Nat.eq_zero_or_pos n with rfl | hn
  · refine ⟨0, le_refl _, ?_⟩
    have hc : Ideal.cmp .ogt (((0 : ℕ) : ℝ) : EReal) 0 = 0#1 := by
      show BitVec.ofBool (decide ((0 : EReal) < (((0 : ℕ) : ℝ) : EReal))) = 0#1
      rw [decide_eq_false (by simp)]
      rfl
    rw [hc, select_zero]
    rfl
  · have hpos : (0 : ℝ) < (n : ℝ) := Nat.cast_pos.mpr hn
    refine ⟨(Real.sqrt (n : ℝ))⁻¹, inv_nonneg.mpr (Real.sqrt_nonneg _), ?_⟩
    have hc : Ideal.cmp .ogt ((n : ℝ) : EReal) 0 = 1#1 := by
      show BitVec.ofBool (decide ((0 : EReal) < ((n : ℝ) : EReal))) = 1#1
      rw [decide_eq_true (EReal.coe_pos.mpr hpos)]
      rfl
    rw [hc, select_one, Ideal.rsqrt_coe, if_neg (not_lt.mpr hpos.le), if_neg hpos.ne']

/-- The degree coefficient at operand element `i`: with `g` the scatter-add of ones into zeros at `i` (the number of
    updates landing there), `g > 0 ? g^(-1/2) : 0` is a nonnegative real. -/
theorem degree_coeff_real {s si su : Shape} (d : ScatterDims s si su) {w : Nat} (idx : IVec si w) (i : s.Idx) :
    ∃ r : ℝ, 0 ≤ r ∧
      Scalar.select (Ideal.cmp .ogt (Ideal.hostScatterAdd d (fun _ => (0 : EReal)) idx (fun _ => (1 : EReal)) i) 0)
        (Ideal.rsqrt (Ideal.hostScatterAdd d (fun _ => (0 : EReal)) idx (fun _ => (1 : EReal)) i)) (0 : EReal)
        = (r : EReal) := by
  have hg : ∃ n : ℕ, Ideal.hostScatterAdd d (fun _ => (0 : EReal)) idx (fun _ => (1 : EReal)) i = ((n : ℝ) : EReal) := by
    unfold Ideal.hostScatterAdd
    exact ⟨_, by rw [zero_add, sum_one_eq_card]⟩
  obtain ⟨n, hn⟩ := hg
  rw [hn]
  exact select_rsqrt_natCast_real n

end Idealize.ShloMosaic.SegmentSum

end
-- ==== Proof.RefTake.lean ====
/-
  Looking up every row of the embedding table at the row numbers 0 .. 9999, in order, gives the table back.

  The row number n is below 10000, so its 32-bit word read signed is n itself: it is not negative (the lookup keeps
  the index as it is rather than moving it up by 10000), it lies between 0 and 9999 (the in-bounds test holds at
  every row, so the lookup keeps the gathered row and never the fill word), and the gather, which clamps the index
  into 0 .. 9999, reads row n.
-/
import proofs.«147795_g18923625906521_cont_8to1_898_2_alg».proof.Proof.RefStages
import proofs.«147795_g18923625906521_cont_8to1_898_2_alg».proof.Proof.LibHostBroadcast
import proofs.«147795_g18923625906521_cont_8to1_898_2_alg».proof.Proof.LibSegmentSum
import Idealize.ShloMosaic.PureOps.Reduce

noncomputable section

namespace Cert.ReferenceIdeal.RefTake

open Cert.ReferenceIdeal Cert.ReferenceIdeal.Gen Cert.ReferenceIdeal.RefStages
open Idealize.ShloMosaic Idealize.ShloMosaic.ValueIdx Idealize.ShloMosaic.Pipeline

/-- A length-a vector repeated across b columns: the vector at the row, whatever the column. -/
theorem vec_cols_apply {α : Type} {a b : ℕ} (h : (⟨1, ![a]⟩ : Shape).BroadcastsInDim ⟨2, ![a, b]⟩ ![0])
    (x : (⟨1, ![a]⟩ : Shape).Idx → α) (j : (⟨2, ![a, b]⟩ : Shape).Idx) :
    broadcastInDim ⟨2, ![a, b]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- The word of a row number reads, unsigned, as the row number. -/
theorem word_toNat (n : Fin 10000) : (BitVec.ofNat 32 n.val).toNat = n.val := by
  rw [BitVec.toNat_ofNat]
  exact Nat.mod_eq_of_lt (by have := n.isLt; omega)

/-- The word of a row number reads, signed, as the row number. -/
theorem word_toInt (n : Fin 10000) : (BitVec.ofNat 32 n.val).toInt = (n.val : ℤ) := by
  rw [BitVec.toInt_eq_toNat_of_lt (by rw [word_toNat]; have := n.isLt; omega), word_toNat]

/-- Entry n of the row numbers is the word of n. -/
theorem rowIds_apply (n : Fin 10000) : rowIds (ix1 n) = BitVec.ofNat 32 n.val := rfl

/-- The index column holds, at row n, the word of n: the row number is not negative, so it is kept. -/
theorem lookupIdx_apply (n : Fin 10000) : lookupIdx (ix2 n (0 : Fin 1)) = BitVec.ofNat 32 n.val := by
  unfold lookupIdx
  rw [HostBroadcast.vec_col_apply, select_apply]
  have hneg : cmpi .slt rowIds (broadcastInDim S10000 ![] bcast_S_S10000 (constantI S_ 32 0#32)) (ix1 n) = 0#1 := by
    apply eq_zero_of_ne_one
    show ¬ IntOp.cmpi .slt (rowIds (ix1 n)) _ = 1#1
    rw [IntOp.cmpi_slt, HostBroadcast.scalar_apply, rowIds_apply, word_toInt]
    show ¬ ((n.val : ℤ) < (0#32 : BitVec 32).toInt)
    rw [show (0#32 : BitVec 32).toInt = 0 from by decide]
    omega
  rw [show (ix2 n (0 : Fin 1)) 0 = n from rfl, hneg, select_zero, rowIds_apply]

/-- An and-fold over a one-element index set is the single entry and-ed with the initial value. -/
theorem fold_andi_one (b : BitVec 1) (g : Fin 1 → BitVec 1) :
    (Finset.univ : Finset (Fin 1)).fold IntOp.andi b g = IntOp.andi (g 0) b := by
  rw [Finset.univ_unique, Finset.fold_singleton]
  rfl

/-- The in-bounds test holds at every row. -/
theorem inBounds_apply (n : Fin 10000) : inBounds (ix1 n) = 1#1 := by
  unfold inBounds
  have hred : S10000x1.Reduces [(1 : Fin 2)] S10000 := by decide
  rw [Host.reduce_eq_fold_single IntOp.andi _ _ reducesTo_S10000x1_S10000_d1 hred h_S_ (ix1 n)]
  refine (fold_andi_one _ _).trans ?_
  have hlift : hred.lift (ix1 n) (0 : Fin 1) = ix2 n (0 : Fin 1) := by
    funext ax
    apply Fin.ext
    match ax with
    | ⟨0, _⟩ => rfl
    | ⟨1, _⟩ => rfl
  show IntOp.andi (andi _ _ (hred.lift (ix1 n) (0 : Fin 1))) (constantI S_ 1 1#1 _) = 1#1
  rw [hlift]
  refine IntOp.andi_eq_one.mpr ⟨?_, rfl⟩
  show IntOp.andi (IntOp.cmpi .sge (lookupIdx (ix2 n 0)) _) (IntOp.cmpi .sle (lookupIdx (ix2 n 0)) _) = 1#1
  refine IntOp.andi_eq_one.mpr ⟨?_, ?_⟩
  · rw [IntOp.cmpi_sge, HostBroadcast.scalar_apply, lookupIdx_apply, word_toInt]
    show (0#32 : BitVec 32).toInt ≤ (n.val : ℤ)
    rw [show (0#32 : BitVec 32).toInt = 0 from by decide]
    omega
  · rw [IntOp.cmpi_sle, lookupIdx_apply, word_toInt, HostBroadcast.row_rows_apply, HostBroadcast.vec_row_apply]
    show (n.val : ℤ) ≤ (9999#32 : BitVec 32).toInt
    rw [show (9999#32 : BitVec 32).toInt = 9999 from by decide]
    have := n.isLt
    omega

variable {α : Type}

/-- The gather at the index column reads, at (n, e), the table's entry (n, e). -/
theorem gather_apply (emb : S10000x64.Idx → α) (n : Fin 10000) (e : Fin 64) :
    Host.gather gather_S10000x64_S10000x1_S10000x64_1_0_n_n_0_1_164 emb lookupIdx (ix2 n e) = emb (ix2 n e) := by
  have h := SegmentSum.rowGather_apply (N := 10000) (E := 10000) (D := 64) (by decide)
    gather_S10000x64_S10000x1_S10000x64_1_0_n_n_0_1_164_wf emb lookupIdx (ix2 n e)
  refine h.trans ?_
  have hrow : SegmentSum.clampRow 10000 (by decide) lookupIdx ((ix2 n e : S10000x64.Idx) 0) = n := by
    apply Fin.ext
    show min (lookupIdx (ix2 n 0)).toInt.toNat (10000 - 1) = n.val
    rw [lookupIdx_apply, word_toInt]
    have := n.isLt
    omega
  rw [hrow]

/-- The lookup of every row, in order, is the table. -/
theorem lookup_eq {F : FTy → Type} [FloatOps F] (emb : FVec F S10000x64 .f32) : lookup emb = emb := by
  funext i
  obtain ⟨n, e, rfl⟩ : ∃ (n : Fin 10000) (e : Fin 64), i = ix2 n e := ⟨i 0, i 1, eq_ix2 i⟩
  unfold lookup
  rw [select_apply, vec_cols_apply, show (ix2 n e : S10000x64.Idx) 0 = n from rfl, inBounds_apply, select_one,
    gather_apply]

end Cert.ReferenceIdeal.RefTake

end
-- ==== Proof.LibConcatCols.lean ====
/-
  Two matrices with the same number of rows laid side by side along the columns, read at an index.

  The concatenation of an R x A array and an R x B array along axis 1 is an R x C array with C = A + B. Entry (r, k)
  is the first array's entry (r, k) when k < A and the second's entry (r, k - A) otherwise. This is what
  jnp.concatenate([x, y], axis=-1) holds, for any element type, on a block of rows as on the whole arrays; two such
  rows agree entry by entry when their halves do.
-/
import Idealize.ShloMosaic.Lib.Pipeline.Value
import Idealize.ShloMosaic.Lib.ValueIdx

namespace Idealize.ShloMosaic.ConcatCols

open Idealize.ShloMosaic Idealize.ShloMosaic.ValueIdx

variable {α : Type} {R R' A B C : Nat}

/-- Entry k of row r of an R x A array and an R x B array laid side by side. -/
def catRow (hC : C = A + B) (x : (⟨2, ![R, A]⟩ : Shape).Idx → α) (y : (⟨2, ![R, B]⟩ : Shape).Idx → α)
    (r : Fin R) (k : Fin C) : α :=
  if h : k.val < A then x (ix2 r ⟨k.val, h⟩) else y (ix2 r ⟨k.val - A, by have := k.isLt; omega⟩)

/-- The concatenation along axis 1, read at (r, k). -/
theorem concat_cols_apply (hC : C = A + B) (x : (⟨2, ![R, A]⟩ : Shape).Idx → α) (y : (⟨2, ![R, B]⟩ : Shape).Idx → α)
    (h : Shape.Concatenates [(⟨2, ![R, A]⟩ : Shape), (⟨2, ![R, B]⟩ : Shape)] (⟨2, ![R, C]⟩ : Shape) 1)
    (r : Fin R) (k : Fin C) :
    concatenate (⟨2, ![R, C]⟩ : Shape) 1 [⟨(⟨2, ![R, A]⟩ : Shape), x⟩, ⟨(⟨2, ![R, B]⟩ : Shape), y⟩] h (ix2 r k)
      = catRow hC x y r k := by
  unfold catRow
  split
  · rename_i hk
    exact concatenate_pair_apply_left (1 : Fin 2) x y h (ix2 r k) rfl (ix2 r ⟨k.val, hk⟩)
      (fun b => match b with | ⟨0, _⟩ => rfl | ⟨1, _⟩ => rfl)
  · rename_i hk
    exact concatenate_pair_apply_right (1 : Fin 2) x y h (ix2 r k) rfl rfl (ix2 r ⟨k.val - A, by have := k.isLt; omega⟩)
      (fun b hb => match b, hb with
        | ⟨0, _⟩, _ => rfl
        | ⟨1, _⟩, hb => absurd rfl hb)
      (by show (k.val - A) + A = k.val; omega)

/-- Two side-by-side rows agree at every entry when their left halves agree and their right halves agree. -/
theorem catRow_congr (hC : C = A + B)
    {x : (⟨2, ![R, A]⟩ : Shape).Idx → α} {y : (⟨2, ![R, B]⟩ : Shape).Idx → α}
    {x' : (⟨2, ![R', A]⟩ : Shape).Idx → α} {y' : (⟨2, ![R', B]⟩ : Shape).Idx → α} {r : Fin R} {r' : Fin R'}
    (hx : ∀ k : Fin A, x (ix2 r k) = x' (ix2 r' k)) (hy : ∀ k : Fin B, y (ix2 r k) = y' (ix2 r' k)) (k : Fin C) :
    catRow hC x y r k = catRow hC x' y' r' k := by
  unfold catRow
  split
  · exact hx _
  · exact hy _

end Idealize.ShloMosaic.ConcatCols
-- ==== Proof.LibHostReduceRow.lean ====
/-
  The host's one-operand reduce along the rows of a rank-2 array, read at a row, at the ideal instance.

  For an a by b array of extended reals and a commutative associative operation f, the reduce along the second axis
  with an initial value is, at row i, the fold of f from the initial value over the b entries of the row, in no
  particular order: a row's maximum or minimum as a reference's softmax or normalisation takes it (the sum has its
  own reading as a finite sum).
-/
import Idealize.ShloMosaic.PureOps.Ideal.Laws
import Idealize.ShloMosaic.PureOps.Reduce
import Idealize.ShloMosaic.Lib.ValueIdx

noncomputable section

namespace Idealize.ShloMosaic.HostReduceRow

open Idealize.ShloMosaic Idealize.ShloMosaic.ValueIdx

variable {a b : ℕ}

/-- The index a reduction along the second axis puts back: row i, entry j. -/
theorem lift_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

/-- The host's reduce of an a by b array along its second axis is, at row i, the fold from the initial value over
    the b entries of the row. -/
theorem host_reduce_row_apply {u : Shape} (f : EReal → EReal → EReal) [Std.Commutative f] [Std.Associative f]
    (x : (⟨2, ![a, b]⟩ : Shape).Idx → EReal) (init : u.Idx → EReal)
    (h' : (⟨2, ![a, b]⟩ : Shape).ReducesTo [(1 : Fin 2)] ⟨1, ![a]⟩) (hu : 0 < u.numel)
    (h : (⟨2, ![a, b]⟩ : Shape).Reduces [(1 : Fin 2)] ⟨1, ![a]⟩) (i : Fin a) :
    Host.reduce f x init h' hu (ix1 i)
      = (Finset.univ : Finset (Fin b)).fold f (init (Shape.Idx.first hu)) (fun j => x (ix2 i j)) := by
  rw [Host.reduce_eq_fold, Shape.ReducesTo.drop_eq_drop h' h, h.fold_filter_drop_single]
  have e : (x ∘ h.lift (ix1 i)) = fun j : Fin b => x (ix2 i j) :=
    funext fun j => congrArg x (lift_row h i j)
  rw [e]
  rfl

end Idealize.ShloMosaic.HostReduceRow

end
-- ==== Proof.RefLayers.lean ====
/-
  The reference's stages read entry by entry on the extended reals, and its result identified with the
  specification's.

  Each matrix product is the plain sum over the contracted index; a bias is the vector's entry at the column; the
  concatenated row is the node features followed by the dense layer's row; the maximum with the spread zero word is
  the maximum with zero; the row maximum is a fold of max from the least element over the sixteen columns, and the
  further maximum with the least element changes nothing; the row sum of exponentials is a plain sum from zero.
  Reading the stages in order gives, at (n, j), the specification's shifted log-softmax of the logits built from
  the concatenated first projection. No entry needs to be finite for this: both sides are the same expression.
-/
import proofs.«147795_g18923625906521_cont_8to1_898_2_alg».proof.Proof.RefStages
import proofs.«147795_g18923625906521_cont_8to1_898_2_alg».proof.Proof.RefTake
import proofs.«147795_g18923625906521_cont_8to1_898_2_alg».proof.Proof.GraphConvArrays
import proofs.«147795_g18923625906521_cont_8to1_898_2_alg».proof.Proof.LibMatmulRows
import proofs.«147795_g18923625906521_cont_8to1_898_2_alg».proof.Proof.LibHostBroadcast
import proofs.«147795_g18923625906521_cont_8to1_898_2_alg».proof.Proof.LibConcatCols
import proofs.«147795_g18923625906521_cont_8to1_898_2_alg».proof.Proof.LibHostReduceRow

noncomputable section

namespace Cert.ReferenceIdeal.RefLayers

open Cert.ReferenceIdeal Cert.ReferenceIdeal.Gen Cert.ReferenceIdeal.RefStages
open Idealize.ShloMosaic Idealize.ShloMosaic.ValueIdx
open Cert.GraphConv (mat vec)

/-! ## The five matrix products, entry by entry -/

theorem dot_emb_apply (a : FVec Ideal S10000x64 .f32) (b : FVec Ideal S64x64 .f32) (i : S10000x64.Idx) :
    Host.dotGeneral dot_S10000x64_S64x64_S10000x64_1_0_0_1_n_n none a b i = ∑ k : Fin 64, a (ix2 (i 0) k) * b (ix2 k (i 1)) :=
  MatmulRows.dotGeneral_apply dot_S10000x64_S64x64_S10000x64_1_0_0_1_n_n none .single rfl rfl rfl rfl (fun _ _ => rfl) (fun _ _ => rfl) a b i

theorem dot_feat_apply (a : FVec Ideal S10000x192 .f32) (b : FVec Ideal S192x32 .f32) (i : S10000x32.Idx) :
    Host.dotGeneral dot_S10000x192_S192x32_S10000x32_1_0_0_1_n_n none a b i = ∑ k : Fin 192, a (ix2 (i 0) k) * b (ix2 k (i 1)) :=
  MatmulRows.dotGeneral_apply dot_S10000x192_S192x32_S10000x32_1_0_0_1_n_n none .single rfl rfl rfl rfl (fun _ _ => rfl) (fun _ _ => rfl) a b i

theorem dot_adj32_apply (a : FVec Ideal S10000x10000 .f32) (b : FVec Ideal S10000x32 .f32) (i : S10000x32.Idx) :
    Host.dotGeneral dot_S10000x10000_S10000x32_S10000x32_1_0_0_1_n_n none a b i = ∑ k : Fin 10000, a (ix2 (i 0) k) * b (ix2 k (i 1)) :=
  MatmulRows.dotGeneral_apply dot_S10000x10000_S10000x32_S10000x32_1_0_0_1_n_n none .single rfl rfl rfl rfl (fun _ _ => rfl) (fun _ _ => rfl) a b i

theorem dot_w2_apply (a : FVec Ideal S10000x32 .f32) (b : FVec Ideal S32x16 .f32) (i : S10000x16.Idx) :
    Host.dotGeneral dot_S10000x32_S32x16_S10000x16_1_0_0_1_n_n none a b i = ∑ k : Fin 32, a (ix2 (i 0) k) * b (ix2 k (i 1)) :=
  MatmulRows.dotGeneral_apply dot_S10000x32_S32x16_S10000x16_1_0_0_1_n_n none .single rfl rfl rfl rfl (fun _ _ => rfl) (fun _ _ => rfl) a b i

theorem dot_adj16_apply (a : FVec Ideal S10000x10000 .f32) (b : FVec Ideal S10000x16 .f32) (i : S10000x16.Idx) :
    Host.dotGeneral dot_S10000x10000_S10000x16_S10000x16_1_0_0_1_n_n none a b i = ∑ k : Fin 10000, a (ix2 (i 0) k) * b (ix2 k (i 1)) :=
  MatmulRows.dotGeneral_apply dot_S10000x10000_S10000x16_S10000x16_1_0_0_1_n_n none .single rfl rfl rfl rfl (fun _ _ => rfl) (fun _ _ => rfl) a b i

variable (x : FVec Ideal S10000x128 .f32) (adj : FVec Ideal S10000x10000 .f32) (emb : FVec Ideal S10000x64 .f32)
  (fcW : FVec Ideal S64x64 .f32) (fcb : FVec Ideal S64 .f32) (W1 : FVec Ideal S192x32 .f32) (b1 : FVec Ideal S32 .f32)
  (W2 : FVec Ideal S32x16 .f32) (b2 : FVec Ideal S16 .f32)

/-! ## The stages -/

/-- The dense layer at (n, f): the looked-up row n is the table's row n. -/
theorem dense_apply (n : Fin 10000) (f : Fin 64) :
    dense emb fcW fcb (ix2 n f) = (∑ e : Fin 64, mat emb n e * mat fcW e f) + vec fcb f := by
  unfold dense
  rw [addf_apply, RefTake.lookup_eq, dot_emb_apply, HostBroadcast.bias_apply]
  rfl

/-- The concatenated row is the specification's feature row. -/
theorem features_apply (n : Fin 10000) (k : Fin 192) :
    features x emb fcW fcb (ix2 n k) = Cert.GraphConv.features (mat x) (mat emb) (mat fcW) (vec fcb) n k := by
  unfold features
  rw [ConcatCols.concat_cols_apply (show 192 = 128 + 64 from rfl)]
  unfold ConcatCols.catRow Cert.GraphConv.features
  by_cases h : k.val < 128
  · rw [dif_pos h, dif_pos h]
    rfl
  · rw [dif_neg h, dif_neg h]
    exact dense_apply emb fcW fcb n _

/-- The first projection is the specification's, in the concatenated arrangement. -/
theorem proj1_apply (n : Fin 10000) (j : Fin 32) :
    proj1 x emb fcW fcb W1 (ix2 n j)
      = Cert.GraphConv.projConcat (mat x) (mat emb) (mat fcW) (vec fcb) (mat W1) n j := by
  unfold proj1 Cert.GraphConv.projConcat
  rw [dot_feat_apply]
  refine Finset.sum_congr rfl fun k _ => ?_
  exact congrArg (· * W1 (ix2 k j)) (features_apply x emb fcW fcb n k)

/-- The hidden layer from any first projection z. -/
theorem hidden_apply (z : FVec Ideal S10000x32 .f32) (n : Fin 10000) (j : Fin 32) :
    RefStages.hidden adj b1 z (ix2 n j) = Cert.GraphConv.hidden (mat adj) (vec b1) (mat z) n j := by
  unfold RefStages.hidden Cert.GraphConv.hidden
  rw [maximumf_apply, addf_apply, dot_adj32_apply, HostBroadcast.bias_apply, HostBroadcast.scalar_apply,
    constant_apply, Ideal.ofBits_zero_f32]
  rfl

/-- The logits from any hidden layer h. -/
theorem logits_apply (h : FVec Ideal S10000x32 .f32) (n : Fin 10000) (j : Fin 16) :
    logits adj W2 b2 h (ix2 n j)
      = (∑ k : Fin 10000, mat adj n k * ∑ q : Fin 32, mat h k q * mat W2 q j) + vec b2 j := by
  unfold logits
  rw [addf_apply, dot_adj16_apply, HostBroadcast.bias_apply]
  refine congrArg₂ (· + ·) (Finset.sum_congr rfl fun k _ => ?_) rfl
  exact congrArg (adj (ix2 n k) * ·) (dot_w2_apply h W2 (ix2 k j))

/-! ## The log-softmax -/

/-- The least float word denotes the least extended real. -/
theorem least_word : Ideal.ofBits .f32 0xFF800000#32 = (⊥ : EReal) := by simp [Ideal.ofBits, Ideal.ieee]

/-- The row maxima are the specification's: a fold of max from the least element over the row. -/
theorem rowMaxima_apply (o : FVec Ideal S10000x16 .f32) (n : Fin 10000) :
    rowMaxima o (ix1 n) = Cert.GraphConv.rowMax (mat o) n := by
  unfold rowMaxima Cert.GraphConv.rowMax
  have hred : S10000x16.Reduces [(1 : Fin 2)] S10000 := by decide
  rw [maximumf_apply, HostBroadcast.scalar_apply, constant_apply,
    HostReduceRow.host_reduce_row_apply (FloatOps.maximumf (F := Ideal) (φ := .f32)) o _ reducesTo_S10000x16_S10000_d1 h_S_ hred n,
    constant_apply, least_word]
  exact max_bot_left _

/-- The shifted entries. -/
theorem shifted_apply (o : FVec Ideal S10000x16 .f32) (n : Fin 10000) (j : Fin 16) :
    shifted o (ix2 n j) = mat o n j - Cert.GraphConv.rowMax (mat o) n := by
  unfold shifted
  rw [subf_apply, HostBroadcast.column_apply]
  exact congrArg (mat o n j - ·) (rowMaxima_apply o n)

/-- The log-softmax is the specification's shifted one. -/
theorem logSoftmax_apply (o : FVec Ideal S10000x16 .f32) (n : Fin 10000) (j : Fin 16) :
    logSoftmax o (ix2 n j) = Cert.GraphConv.logSoftmaxShifted (mat o) n j := by
  unfold logSoftmax Cert.GraphConv.logSoftmaxShifted Cert.GraphConv.logSumExp
  have hred : S10000x16.Reduces [(1 : Fin 2)] S10000 := by decide
  rw [subf_apply, shifted_apply, HostBroadcast.col_cols_apply]
  refine congrArg (fun t : EReal => (mat o n j - Cert.GraphConv.rowMax (mat o) n) - t) ?_
  show Ideal.log (broadcastInDim S10000x1 ![0] bcast_S10000_S10000x1_0
    (Host.reduceAdd (Host.exp (shifted o)) (constant S_ .f32 0x00000000#32) reducesTo_S10000x16_S10000_d1 h_S_)
    (ix2 n (0 : Fin 1))) = _
  rw [HostBroadcast.vec_col_apply]
  refine congrArg Ideal.log ?_
  show Ideal.hostReduceAdd reducesTo_S10000x16_S10000_d1 (Host.exp (shifted o)) (Ideal.ofBits .f32 0x00000000#32) (ix1 n) = _
  rw [Ideal.hostReduceAdd_single reducesTo_S10000x16_S10000_d1 hred, Ideal.ofBits_zero_f32, zero_add]
  refine Finset.sum_congr rfl fun q _ => ?_
  rw [HostReduceRow.lift_row hred n q]
  exact congrArg Ideal.exp (shifted_apply o n q)

/-! ## The result -/

/-- The reference's result is the specification's array. -/
theorem out_eq_concat :
    RefStages.out x adj emb fcW fcb W1 b1 W2 b2 = Cert.GraphConv.concatArray x adj emb fcW fcb W1 b1 W2 b2 := by
  funext i
  obtain ⟨n, j, rfl⟩ : ∃ (n : Fin 10000) (j : Fin 16), i = ix2 n j := ⟨i 0, i 1, eq_ix2 i⟩
  unfold RefStages.out
  rw [logSoftmax_apply]
  have hp : mat (proj1 x emb fcW fcb W1)
      = Cert.GraphConv.projConcat (mat x) (mat emb) (mat fcW) (vec fcb) (mat W1) :=
    funext fun a => funext fun b => proj1_apply x emb fcW fcb W1 a b
  have hh : mat (RefStages.hidden adj b1 (proj1 x emb fcW fcb W1))
      = Cert.GraphConv.hidden (mat adj) (vec b1)
          (Cert.GraphConv.projConcat (mat x) (mat emb) (mat fcW) (vec fcb) (mat W1)) :=
    funext fun a => funext fun b => (hidden_apply adj b1 _ a b).trans (by rw [hp])
  have hl : mat (logits adj W2 b2 (RefStages.hidden adj b1 (proj1 x emb fcW fcb W1)))
      = Cert.GraphConv.logits (mat adj) (vec b1) (mat W2) (vec b2)
          (Cert.GraphConv.projConcat (mat x) (mat emb) (mat fcW) (vec fcb) (mat W1)) :=
    funext fun a => funext fun b => (logits_apply adj W2 b2 _ a b).trans (by rw [hh]; rfl)
  rw [hl]
  rfl

end Cert.ReferenceIdeal.RefLayers

end
-- ==== Proof.RefValue.lean ====
/-
  The reference program's run and value together: every weakly fair execution of the reference, read on the
  extended reals, terminates with its result array equal to the specification's array of the nine argument arrays
  as they were at launch, and with the arguments unchanged.
-/
import proofs.«147795_g18923625906521_cont_8to1_898_2_alg».proof.Proof.RefFold
import proofs.«147795_g18923625906521_cont_8to1_898_2_alg».proof.Proof.RefLayers

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The reference's run: the result is the two-layer graph convolution in the concatenated arrangement, the
    arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19)
          = Cert.GraphConv.concatArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono
    (fun _ h c => ⟨(h c).1.trans (RefLayers.out_eq_concat _ _ _ _ _ _ _ _ _), (h c).2⟩)
    (RefFold.run (F := Ideal) m ρ)

end Cert.ReferenceIdeal.RefValue

end
-- ==== Proof.lean ====
/-
  The certificate: a three-launch kernel for a two-layer graph convolution against its plain reference.

  Both programs compute log-softmax (adj (relu (adj z + b1) W2) + b2) of a first projection z of the node features
  and the looked-up, densely transformed embeddings. The kernel multiplies the projection out over the two blocks of
  rows of W1 (x W1a + emb (fcW W1b) + fcb W1b) where the reference multiplies the concatenated row by W1, and it
  writes the log-softmax as o - (log sum exp (o - M) + M) where the reference writes (o - M) - log sum exp (o - M).
  On the extended reals the two arrangements agree when every input entry is a real number — the distributive law
  and the cancellation fail at the infinities — and that is what the precondition provides.

  The frames of the two kernel programs are the generated ones; the reference's frame is its run with the result
  dropped. The idealization rewrote nothing, so there is nothing to preserve. For the value claim the kernel's run
  names its result array (KernelResultRun), that array is the split arrangement of the arguments (KernelResultValue),
  the reference's run ends at the concatenated arrangement (RefValue), and the two arrangements agree on
  real-valued inputs (GraphConvAlgebra, with FiniteInputs reading the precondition).
-/
import proofs.«147795_g18923625906521_cont_8to1_898_2_alg».proof.Defs
import proofs.«147795_g18923625906521_cont_8to1_898_2_alg».proof.Proof.Gen.Kernel
import proofs.«147795_g18923625906521_cont_8to1_898_2_alg».proof.Proof.Gen.Kernel.Skeleton
import proofs.«147795_g18923625906521_cont_8to1_898_2_alg».proof.Proof.Gen.Kernel.Launch
import proofs.«147795_g18923625906521_cont_8to1_898_2_alg».proof.Proof.Gen.Kernel.Points
import proofs.«147795_g18923625906521_cont_8to1_898_2_alg».proof.Proof.Gen.Kernel.Frame
import proofs.«147795_g18923625906521_cont_8to1_898_2_alg».proof.Proof.Gen.KernelIdeal
import proofs.«147795_g18923625906521_cont_8to1_898_2_alg».proof.Proof.Gen.KernelIdeal.Skeleton
import proofs.«147795_g18923625906521_cont_8to1_898_2_alg».proof.Proof.Gen.KernelIdeal.Launch
import proofs.«147795_g18923625906521_cont_8to1_898_2_alg».proof.Proof.Gen.KernelIdeal.Points
import proofs.«147795_g18923625906521_cont_8to1_898_2_alg».proof.Proof.Gen.KernelIdeal.Frame
import proofs.«147795_g18923625906521_cont_8to1_898_2_alg».proof.Proof.Gen.ReferenceIdeal
import proofs.«147795_g18923625906521_cont_8to1_898_2_alg».proof.Proof.Gen.Pre_finite_inputs
import proofs.«147795_g18923625906521_cont_8to1_898_2_alg».proof.Proof.KernelResultRun
import proofs.«147795_g18923625906521_cont_8to1_898_2_alg».proof.Proof.KernelResultValue
import proofs.«147795_g18923625906521_cont_8to1_898_2_alg».proof.Proof.GraphConvAlgebra
import proofs.«147795_g18923625906521_cont_8to1_898_2_alg».proof.Proof.FiniteInputs
import proofs.«147795_g18923625906521_cont_8to1_898_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Both runs end at the reference's arrangement of the arguments: the kernel's split arrangement equals it because
    every input entry is a real number. -/
theorem algebraic : Cert.algebraic_KernelIdeal_ReferenceIdeal := by
  intro m ρ m' ρ' hpre hagree
  refine ⟨fun c => Cert.GraphConv.concatArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨?_, (h c).2⟩) (Cert.KernelIdeal.ResultRun.run_main m ρ)
    obtain ⟨h0, h1, h2, h3, h4, h5, h6, h7, h8⟩ := Cert.FiniteInputs.real_entries _ _ _ _ _ _ _ _ _ (hpre c)
    exact ((h c).1.trans (Cert.KernelIdeal.ResultValue.result_value m ρ c)).trans
      (Cert.GraphConv.splitArray_eq_concatArray _ _ _ _ _ _ _ _ _ h0 h1 h2 h3 h4 h5 h6 h7 h8)
  · refine (θ_run Cert.ReferenceIdeal.defs _ _).mono (fun r h c => ⟨(h c).1.trans ?_, (h c).2⟩) (Cert.ReferenceIdeal.RefValue.run m' ρ')
    obtain ⟨e0, e1, e2, e3, e4, e5, e6, e7, e8⟩ := hagree c
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
